-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S32x4096 : Shape := ⟨2, ![32, 4096]⟩
abbrev S4096x32 : Shape := ⟨2, ![4096, 32]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S32x4096 : S_.BroadcastsInDim S32x4096 (![] : Fin 0 → Fin S32x4096.rank)
  reducesTo_S32x4096_S_d0_1 : S32x4096.ReducesTo [0, 1] S_
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_
  reducesTo_S4096x4096_S4096_d1 : S4096x4096.ReducesTo [1] S4096
  dot_S4096x32_S32x4096_S4096x4096_1_0_0_1_n_n_wf : DotDims.WF S4096x32 S32x4096 S4096x4096 [1] [0] [0] [1] [] []

variable [Facts]

def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf
def fn_part1 {F : FTy → Type} [FloatOps F] (main_arg1 : FVec F S4096x4096 .f32) (main_arg2 : FVec F S32x4096 .f32) (main_arg3 : FVec F S4096x32 .f32) (main_arg4 : FVec F S4096 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := (fun l r => Host.dotGeneral dot_S4096x32_S32x4096_S4096x4096_1_0_0_1_n_n none l r) main_arg3 main_arg2
  let main_v25 : FVec F S4096x4096 .f32 := addf main_arg1 main_v24
  let main_v26 : FVec F S4096x4096 .f32 := (fun l r => Host.dotGeneral dot_S4096x32_S32x4096_S4096x4096_1_0_0_1_n_n none l r) main_arg3 main_arg2
  let main_v27 : FVec F S4096x4096 .f32 := addf main_arg1 main_v26
  let main_v28 : FVec F S4096x4096 .f32 := mulf main_v25 main_v27
  let main_cst_8 : FVec F S_ .f32 := constant S_ .f32 0x00000000#32
  let main_v29 : FVec F S4096 .f32 := (fun x v => Host.reduceAdd x v reducesTo_S4096x4096_S4096_d1 h_S_) main_v28 main_cst_8
  let main_cst_9 : FVec F S_ .f32 := constant S_ .f32 0x00000000#32
  let main_v30 : FVec F S4096 .f32 := broadcastInDim S4096 ![] bcast_S_S4096 main_cst_9
  let main_v31 : IVec S4096 1 := cmpf .ogt main_v29 main_v30
  let main_c_10 : IVec S_ 1 := constantI S_ 1 1#1
  let main_v32 : IVec S_ 1 := (fun x v => Host.reduce IntOp.andi x v reducesTo_S4096_S_d0 h_S_) main_v31 main_c_10
  let main_v33 : IVec S_ 1 := andi main_v23 main_v32
  main_v33

def fn {F : FTy → Type} [FloatOps F] (main_arg0 : FVec F S2x2048x4096 .f32) (main_arg1 : FVec F S4096x4096 .f32) (main_arg2 : FVec F S32x4096 .f32) (main_arg3 : FVec F S4096x32 .f32) (main_arg4 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S32x4096 .f32 := Host.absf main_arg2
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096x32 .f32 := Host.absf main_arg3
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg1 main_arg2 main_arg3 main_arg4 main_v13 main_v16
-- ==== Kernel.lean ====
abbrev S2x2048x4096 : Shape := ⟨3, ![2, 2048, 4096]⟩
abbrev S4096x4096 : Shape := ⟨2, ![4096, 4096]⟩
abbrev S32x4096 : Shape := ⟨2, ![32, 4096]⟩
abbrev S4096x32 : Shape := ⟨2, ![4096, 32]⟩
abbrev S4096 : Shape := ⟨1, ![4096]⟩
abbrev S1x4096 : Shape := ⟨2, ![1, 4096]⟩
abbrev S256x4096 : Shape := ⟨2, ![256, 4096]⟩
abbrev S256x32 : Shape := ⟨2, ![256, 32]⟩
abbrev S1x256 : Shape := ⟨2, ![1, 256]⟩
abbrev S256 : Shape := ⟨1, ![256]⟩
abbrev S256x1 : Shape := ⟨2, ![256, 1]⟩
abbrev S1024x128 : Shape := ⟨2, ![1024, 128]⟩
abbrev S2048x128 : Shape := ⟨2, ![2048, 128]⟩
abbrev S1x2048 : Shape := ⟨2, ![1, 2048]⟩
abbrev S1024x2048 : Shape := ⟨2, ![1024, 2048]⟩

abbrev nBuf : Space → Nat
  | .hbm => 12
  | .vmem => 18
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S32x4096, .f32⟩
  | .hbm, ⟨3, _⟩ => ⟨S4096x32, .f32⟩
  | .hbm, ⟨4, _⟩ => ⟨S4096, .f32⟩
  | .hbm, ⟨5, _⟩ => ⟨S4096x4096, .bf16⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S2x2048x4096, .f32⟩
  | .local _ .vmem, ⟨0, _⟩ => ⟨S256x4096, .f32⟩
  | .local _ .vmem, ⟨1, _⟩ => ⟨S256x4096, .f32⟩
  | .local _ .vmem, ⟨2, _⟩ => ⟨S256x32, .f32⟩
  | .local _ .vmem, ⟨3, _⟩ => ⟨S256x32, .f32⟩
  | .local _ .vmem, ⟨4, _⟩ => ⟨S32x4096, .f32⟩
  | .local _ .vmem, ⟨5, _⟩ => ⟨S256x4096, .bf16⟩
  | .local _ .vmem, ⟨6, _⟩ => ⟨S256x4096, .bf16⟩
  | .local _ .vmem, ⟨7, _⟩ => ⟨S1x256, .f32⟩
  | .local _ .vmem, ⟨8, _⟩ => ⟨S1x256, .f32⟩
  | .local _ .vmem, ⟨9, _⟩ => ⟨S1024x128, .f32⟩
  | .local _ .vmem, ⟨10, _⟩ => ⟨S1024x128, .f32⟩
  | .local _ .vmem, ⟨11, _⟩ => ⟨S2048x128, .bf16⟩
  | .local _ .vmem, ⟨12, _⟩ => ⟨S2048x128, .bf16⟩
  | .local _ .vmem, ⟨13, _⟩ => ⟨S1x2048, .f32⟩
  | .local _ .vmem, ⟨14, _⟩ => ⟨S1x2048, .f32⟩
  | .local _ .vmem, ⟨15, _⟩ => ⟨S1024x2048, .f32⟩
  | .local _ .vmem, ⟨16, _⟩ => ⟨S1024x2048, .f32⟩
  | .local _ .vmem, ⟨17, _⟩ => ⟨S1024x2048, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![4, 2, 32], ![false, false, false]⟩

def k1_cond2 (i : grid1.Coords) : BitVec 1 :=
  let arg2 : BitVec 32 := BitVec.ofNat 32 (i 2).val
  let c31_i32 : BitVec 32 := 31#32
  let v14 : BitVec 1 := Scalar.cmpi .eq arg2 c31_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S256x4096_S256x4096_0_0 : ∀ a, (![0, 0] : Fin 2 → Nat) a + S256x4096.size a ≤ S256x4096.size a
  h_S256x4096 : 0 < S256x4096.numel
  inb_S256x32_S256x32_0_0 : ∀ a, (![0, 0] : Fin 2 → Nat) a + S256x32.size a ≤ S256x32.size a
  h_S256x32 : 0 < S256x32.numel
  inb_S32x4096_S32x4096_0_0 : ∀ a, (![0, 0] : Fin 2 → Nat) a + S32x4096.size a ≤ S32x4096.size a
  h_S32x4096 : 0 < S32x4096.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  reduces_S256x4096_S256 : S256x4096.Reduces [1] S256
  shapeCasts_S256_S256x1 : S256.ShapeCasts S256x1
  transposes_S256x1_p1_0_S1x256 : S256x1.Transposes [1, 0] S1x256
  inb_S1x256_S1x256_0_0 : ∀ a, (![0, 0] : Fin 2 → Nat) a + S1x256.size a ≤ S1x256.size a
  h_S1x256 : 0 < S1x256.numel
  shapeCasts_S4096_S1x4096 : S4096.ShapeCasts S1x4096
  shapeCasts_S2x2048x4096_S4096x4096 : S2x2048x4096.ShapeCasts S4096x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S4096x4096_S2x2048x4096 : S4096x4096.ShapeCasts S2x2048x4096
  dot_S256x32_S32x4096_S256x4096_1_0_0_1_n_n_wf : DotDims.WF S256x32 S32x4096 S256x4096 [1] [0] [0] [1] [] []
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S4096x32.size a
  hwx0_1 : ∀ i : grid0.Coords, EltTy.bits .f32 = 32 ∨ (Rect.block (s := S4096x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x4096.size a ≤ S32x4096.size a
  hwx0_2 : ∀ i : grid0.Coords, EltTy.bits .f32 = 32 ∨ (Rect.block (s := S32x4096) S32x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .bf16 = 32 ∨ (Rect.block (s := S4096x4096) S256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x4096.size a
  hwx0_4 : ∀ i : grid0.Coords, EltTy.bits .f32 = 32 ∨ (Rect.block (s := S1x4096) S1x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S4096x4096.size a
  hwx1_0 : ∀ i : grid1.Coords, EltTy.bits .f32 = 32 ∨ (Rect.block (s := S4096x4096) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S4096x4096.size a
  hwx1_1 : ∀ i : grid1.Coords, EltTy.bits .bf16 = 32 ∨ (Rect.block (s := S4096x4096) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S4096x4096.size a
  hwx1_3 : ∀ i : grid1.Coords, EltTy.bits .f32 = 32 ∨ (Rect.block (s := S4096x4096) S1024x2048.size (cc1_transform_3 i) (hinb1_3 i)).WholeWords (EltTy.packing .f32)

variable [Facts₀]

def dot_S256x32_S32x4096_S256x4096_1_0_0_1_n_n : DotDims S256x32 S32x4096 S256x4096 where
  lhsContracting := [1]
  rhsContracting := [0]
  lhsNonContracting := [0]
  rhsNonContracting := [1]
  lhsBatch := []
  rhsBatch := []
  wf := dot_S256x32_S32x4096_S256x4096_1_0_0_1_n_n_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S256x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x4096 : Shape := ⟨2, ![4096, 4096]⟩
abbrev S32x4096 : Shape := ⟨2, ![32, 4096]⟩
abbrev S4096x32 : Shape := ⟨2, ![4096, 32]⟩
abbrev S4096 : Shape := ⟨1, ![4096]⟩
abbrev S2x2048x32 : Shape := ⟨3, ![2, 2048, 32]⟩
abbrev S_ : Shape := ⟨0, ![]⟩
abbrev S1x1x4096 : Shape := ⟨3, ![1, 1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S32x4096, .f32⟩
  | .hbm, ⟨3, _⟩ => ⟨S4096x32, .f32⟩
  | .hbm, ⟨4, _⟩ => ⟨S4096, .f32⟩
  | .hbm, ⟨5, _⟩ => ⟨S2x2048x4096, .f32⟩
  | .hbm, ⟨6, _⟩ => ⟨S2x2048x32, .f32⟩
  | .hbm, ⟨7, _⟩ => ⟨S2x2048x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S2x2048x4096, .f32⟩
  | .hbm, ⟨15, _⟩ => ⟨S1x1x4096, .f32⟩
  | .hbm, ⟨16, _⟩ => ⟨S2x2048x4096, .f32⟩
  | .hbm, ⟨17, _⟩ => ⟨S2x2048x4096, .f32⟩
  | .hbm, ⟨18, _⟩ => ⟨S1x1x4096, .f32⟩
  | .hbm, ⟨19, _⟩ => ⟨S2x2048x4096, .f32⟩
  | .hbm, ⟨20, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S2x2048x4096_S4096x4096_S2x2048x4096_2_1_01_0_n_n_wf : DotDims.WF S2x2048x4096 S4096x4096 S2x2048x4096 [2] [1] [0, 1] [0] [] []
  dot_S2x2048x4096_S32x4096_S2x2048x32_2_1_01_0_n_n_wf : DotDims.WF S2x2048x4096 S32x4096 S2x2048x32 [2] [1] [0, 1] [0] [] []
  dot_S2x2048x32_S4096x32_S2x2048x4096_2_1_01_0_n_n_wf : DotDims.WF S2x2048x32 S4096x32 S2x2048x4096 [2] [1] [0, 1] [0] [] []
  dot_S4096x32_S32x4096_S4096x4096_1_0_0_1_n_n_wf : DotDims.WF S4096x32 S32x4096 S4096x4096 [1] [0] [0] [1] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf
def dot_S2x2048x4096_S32x4096_S2x2048x32_2_1_01_0_n_n : DotDims S2x2048x4096 S32x4096 S2x2048x32 where
  lhsContracting := [2]
  rhsContracting := [1]
  lhsNonContracting := [0, 1]
  rhsNonContracting := [0]
  lhsBatch := []
  rhsBatch := []
  wf := dot_S2x2048x4096_S32x4096_S2x2048x32_2_1_01_0_n_n_wf
def dot_S2x2048x32_S4096x32_S2x2048x4096_2_1_01_0_n_n : DotDims S2x2048x32 S4096x32 S2x2048x4096 where
  lhsContracting := [2]
  rhsContracting := [1]
  lhsNonContracting := [0, 1]
  rhsNonContracting := [0]
  lhsBatch := []
  rhsBatch := []
  wf := dot_S2x2048x32_S4096x32_S2x2048x4096_2_1_01_0_n_n_wf
def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf

class Facts : Prop extends Facts₀ where

variable [Facts]
-- ==== Proof.K0Frame.lean ====
/-
  The first pallas_call (the effective weight and its row norms): 16 grid points, point j owning rows
  256 j … 256 j + 255. The body loads the point's block of W, its block of the low-rank factor B and the whole
  factor A, forms E = W + B·A, stores E into the first output block and the row norms √(Σ E²), laid out as a
  [1, 256] row, into the second. One control case; every load and store is of a whole staging buffer. Here: the
  blocks, what the body leaves in each output block, the body's triple, the pipeline's proof data and the body
  obligation at every point.
-/
import proofs.«144505_j26989574488653_2_alg».proof.Proof.Gen.KernelIdeal.Launch
import proofs.«144505_j26989574488653_2_alg».proof.Proof.Gen.KernelIdeal.Skeleton
import proofs.«144505_j26989574488653_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's accesses -/

abbrev rW : Rect S256x4096 := Rect.unit (s := S256x4096) ![0, 0] S256x4096.size inb_S256x4096_S256x4096_0_0
abbrev rB : Rect S256x32 := Rect.unit (s := S256x32) ![0, 0] S256x32.size inb_S256x32_S256x32_0_0
abbrev rA : Rect S32x4096 := Rect.unit (s := S32x4096) ![0, 0] S32x4096.size inb_S32x4096_S32x4096_0_0
abbrev rN : Rect S1x256 := Rect.unit (s := S1x256) ![0, 0] S1x256.size inb_S1x256_S1x256_0_0

/-! ## What the body leaves in each output block -/

/-- The first output block after the body: its one store, of E in the storage format. -/
def out0_3 (x0 : Vec F S256x4096 .f32) (x1 : Vec F S256x32 .f32) (x2 : Vec F S32x4096 .f32) : Vec F S256x4096 .bf16 :=
  View.canon [⟨rW, k0_pay2 (View.ld x0 rW) (View.ld x1 rB) (View.ld x2 rA)⟩]

/-- The second output block after the body: its one store, of the row norms as a [1, 256] row. -/
def out0_4 (x0 : Vec F S256x4096 .f32) (x1 : Vec F S256x32 .f32) (x2 : Vec F S32x4096 .f32) : Vec F S1x256 .f32 :=
  View.canon [⟨rN, k0_pay3 (View.ld x0 rW) (View.ld x1 rB) (View.ld x2 rA)⟩]

theorem cover0_3 (p0 : Vec F S256x4096 .bf16) (y : S256x4096.Idx) :
    ∃ pc ∈ ([⟨rW, p0⟩] : List (View.Piece (Elt F) S256x4096 .bf16)), y ∈ pc.1.set :=
  View.cover_of_tiled [⟨rW, p0⟩] S256x4096.size (by rfl) y

theorem cover0_4 (p0 : Vec F S1x256 .f32) (y : S1x256.Idx) :
    ∃ pc ∈ ([⟨rN, p0⟩] : List (View.Piece (Elt F) S1x256 .f32)), y ∈ pc.1.set :=
  View.cover_of_tiled [⟨rN, p0⟩] S1x256.size (by rfl) y

/-! ## The body's triple -/

set_option maxHeartbeats 1000000 in
theorem sound_kernel0 (c : Dev nD) (E : Set ℕ) (i : grid0.Coords) (arg1 : Memref sig .tc .vmem S256x4096 .f32) (harg1 : arg1.IsWhole) (arg2 : Memref sig .tc .vmem S256x32 .f32) (harg2 : arg2.IsWhole) (arg3 : Memref sig .tc .vmem S32x4096 .f32) (harg3 : arg3.IsWhole) (arg4 : Memref sig .tc .vmem S256x4096 .bf16) (harg4 : arg4.IsWhole) (arg5 : Memref sig .tc .vmem S1x256 .f32) (harg5 : arg5.IsWhole)
    (x0 : Vec F S256x4096 .f32) (x1 : Vec F S256x32 .f32) (x2 : Vec F S32x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__effw_kernel i arg1 harg1 arg2 harg2 arg3 harg3 arg4 harg4 arg5 harg5) K := by
  simp only [cc0__effw_kernel_eq_skeleton]; unfold cc0__effw_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

section Region0

variable (V : (c : Dev nD) → (b : Ref sig .tc) → Buf (Elt F) ((c : Thread nD τ).loc b))

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.K1Base.lean ====
/-
  The second pallas_call (the tiled product with the rescale), first part: what every run of its body is stated over.
  The grid is 4 × 2 × 32 points (i, j, k), k innermost; the body zeroes its accumulator where k = 0, adds the
  product of the point's x-block and weight-block to it at every point, and where k = 31 stores the accumulator
  times the broadcast scale row into the output block. So the output window is stored at the points with
  k = 31 only and left alone elsewhere, and the accumulator is carried from point to point.
-/
import proofs.«144505_j26989574488653_2_alg».proof.Proof.Gen.KernelIdeal.Launch
import proofs.«144505_j26989574488653_2_alg».proof.Proof.Gen.KernelIdeal.Skeleton
import proofs.«144505_j26989574488653_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions, over the grid -/

/-- "k = 0": the body zeroes the accumulator. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)
/-- "k = 31": the body stores the output block. -/
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from k = 31 the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S1024x2048 .f32 := (Memref.whole cc1_stg3_0 : Memref sig .tc .vmem S1024x2048 .f32).view
abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x2048 .f32 := Memref.whole cc1_scratch0
abbrev VS1 : View sig .tc .vmem S1024x2048 .f32 := scM1.view

/-- The scoped buffers the second call does not stage, the accumulator last and at the stated resource. -/
def rest1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ S)

/-- The class invariant with the accumulator owned at some contents. -/
theorem PhiA1_eq (c : Dev nD) :
    (Pipeline.ΦA spec1 c : sProp 𝕄)
      = iprop(rest1 c (iprop(∃ d, owns (c : Thread nD τ) scM1 fullShare d)) ∗ (∃ r, prngReg c r)) := by
  unfold Pipeline.ΦA rest1; rw [scopedRest1_eq]; simp only [scM1, owns_whole]; try rfl

end Cert.KernelIdeal.Hand

end
-- ==== Proof.K1RunA.lean ====
/-
  The body of the second call at a point with k = 0 (and k ≠ 31): the accumulator is zeroed, then the point's product is added; the output block is not touched. The stores the accumulator ends with are found by running the body.
-/
import proofs.«144505_j26989574488653_2_alg».proof.Proof.K1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x128 .f32) (x1 : Vec F S2048x128 .bf16) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__main_kernel i arg3 harg3 arg4 harg4 arg5 harg5 arg6 harg6 arg7 harg7) K } := by
  refine ⟨[], ?_, fun xi3 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.K1RunB.lean ====
/-
  The body of the second call at a point with 0 < k < 31: the point's product is added to the accumulator the point before left; the output block is not touched.
-/
import proofs.«144505_j26989574488653_2_alg».proof.Proof.K1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x128 .f32) (x1 : Vec F S2048x128 .bf16) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__main_kernel i arg3 harg3 arg4 harg4 arg5 harg5 arg6 harg6 arg7 harg7) K } := by
  refine ⟨[], ?_, fun xi3 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.K1RunC.lean ====
/-
  The body of the second call at a point with k = 31: the point's product is added to the accumulator, and the accumulator times the broadcast scale row is stored into the output block.
-/
import proofs.«144505_j26989574488653_2_alg».proof.Proof.K1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x128 .f32) (x1 : Vec F S2048x128 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__main_kernel i arg3 harg3 arg4 harg4 arg5 harg5 arg6 harg6 arg7 harg7) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.K1Frame.lean ====
/-
  The second pallas_call, last part: what the accumulator and the output block hold after each point, the
  pipeline's proof data, and the body obligation at every point.
  After point n the accumulator holds the stores of that point's case read back: at k = 0 the product of the
  point's blocks added to zero, otherwise added to what the point before left. The invariant carried from point
  to point is: the other scoped buffers at anything, the accumulator at exactly that contents.
-/
import proofs.«144505_j26989574488653_2_alg».proof.Proof.K1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

/-- Case k = 0: nothing is stored into the output block (a placeholder nothing consults). -/
def out1_A_3 (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x128 .f32) (x1 : Vec F S2048x128 .bf16) (x2 : Vec F S1x2048 .f32) : Vec F S1024x2048 .f32 :=
  VO1_3.read (Elt F) (VO1_3.writes (Elt F) VO1_3.junk (kernelRun1_A c i arg3 harg3 arg4 harg4 arg5 harg5 arg6 harg6 arg7 harg7 hc0 hc1 x0 x1 x2).1)

/-- Case k = 0: the stores into the accumulator cover it. -/
theorem scover1_A (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x128 .f32) (x1 : Vec F S2048x128 .bf16) (x2 : Vec F S1x2048 .f32) (y : S1024x2048.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x2048.size (by sl_kernel_rfl) y

/-- Case k = 0: what the accumulator holds afterwards. -/
def sout1_A (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x128 .f32) (x1 : Vec F S2048x128 .bf16) (x2 : Vec F S1x2048 .f32) : Vec F S1024x2048 .f32 :=
  VS1.read (Elt F) (VS1.writes (Elt F) VS1.junk (kernelRun1_A c i arg3 harg3 arg4 harg4 arg5 harg5 arg6 harg6 arg7 harg7 hc0 hc1 x0 x1 x2).2.1)

/-- Case 0 < k < 31: nothing is stored into the output block. -/
def out1_B_3 (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x128 .f32) (x1 : Vec F S2048x128 .bf16) (x2 : Vec F S1x2048 .f32) (xs0 : Vec F S1024x2048 .f32) : Vec F S1024x2048 .f32 :=
  VO1_3.read (Elt F) (VO1_3.writes (Elt F) VO1_3.junk (kernelRun1_B c i arg3 harg3 arg4 harg4 arg5 harg5 arg6 harg6 arg7 harg7 hc0 hc1 x0 x1 x2 xs0).1)

theorem scover1_B (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x128 .f32) (x1 : Vec F S2048x128 .bf16) (x2 : Vec F S1x2048 .f32) (xs0 : Vec F S1024x2048 .f32) (y : S1024x2048.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x2048.size (by sl_kernel_rfl) y

def sout1_B (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x128 .f32) (x1 : Vec F S2048x128 .bf16) (x2 : Vec F S1x2048 .f32) (xs0 : Vec F S1024x2048 .f32) : Vec F S1024x2048 .f32 :=
  VS1.read (Elt F) (VS1.writes (Elt F) VS1.junk (kernelRun1_B c i arg3 harg3 arg4 harg4 arg5 harg5 arg6 harg6 arg7 harg7 hc0 hc1 x0 x1 x2 xs0).2.1)

/-- Case k = 31: the store into the output block covers it. -/
theorem cover1_C_3 (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x128 .f32) (x1 : Vec F S2048x128 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y

/-- Case k = 31: what the output block holds afterwards. -/
def out1_C_3 (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x128 .f32) (x1 : Vec F S2048x128 .bf16) (x2 : Vec F S1x2048 .f32) (xs0 : Vec F S1024x2048 .f32) : Vec F S1024x2048 .f32 :=
  VO1_3.read (Elt F) (VO1_3.writes (Elt F) VO1_3.junk (kernelRun1_C c i arg3 harg3 arg4 harg4 arg5 harg5 arg6 harg6 arg7 harg7 hc0 hc1 x0 x1 x2 xs0).1)

theorem scover1_C (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x128 .f32) (x1 : Vec F S2048x128 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y

def sout1_C (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x128 .f32) (x1 : Vec F S2048x128 .bf16) (x2 : Vec F S1x2048 .f32) (xs0 : Vec F S1024x2048 .f32) : Vec F S1024x2048 .f32 :=
  VS1.read (Elt F) (VS1.writes (Elt F) VS1.junk (kernelRun1_C c i arg3 harg3 arg4 harg4 arg5 harg5 arg6 harg6 arg7 harg7 hc0 hc1 x0 x1 x2 xs0).2.1)

section Region1

variable (V : (c : Dev nD) → (b : Ref sig .tc) → Buf (Elt F) ((c : Thread nD τ).loc b))

/-! ## The accumulation -/

/-- What the output block (first component) and the accumulator (second) hold after the body at position n. -/
def outsAt1 (c : Dev nD) : (n : ℕ) → n < cfg1.N → Vec F S1024x2048 .f32 × Vec F S1024x2048 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 32 = 0 then
      if h1 : (n + 1) % 32 = 31 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 32 = 31 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 32 = 0) (h1 : ¬t.val % 32 = 31) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 32 = 0) (h1 : ¬t.val % 32 = 31) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 32 = 0) (h1 : t.val % 32 = 31) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position n: before the first point the class's; afterwards the accumulator at what the
    point before left, the other scoped buffers at anything, the generator register at some state. -/
def PhiS (c : Dev nD) : (n : ℕ) → n ≤ cfg1.N → sProp 𝕄
  | 0, _ => Pipeline.ΦA spec1 c
  | n + 1, hn => iprop(rest1 c (owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest1 c (owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(rest1 c (owns (c : Thread nD τ) scM1 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]; try rfl
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]; try rfl
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]; try rfl

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 256 := lt_of_lt_of_eq t.isLt (show cfg1.N = 256 from N_1)
  by_cases h0 : t.val % 32 = 0
  · have h1 : ¬t.val % 32 = 31 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS_castSucc V c t, PhiS_zero V c _ _ hz, PhiA1_eq]
      unfold rest1
      iintro ⟨⟨⟨R0, R1, R2, R3, R4, R5, R6, R7, R8, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [R0 R1 R2 R3 R4 R5 R6 R7 R8 HS0 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      unfold rest1
      iintro ⟨⟨⟨R0, R1, R2, R3, R4, R5, R6, R7, R8, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [R0 R1 R2 R3 R4 R5 R6 R7 R8 HS0 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by intro hz; rw [hz] at h0; exact h0 (Nat.zero_mod _)
    by_cases h1 : t.val % 32 = 31
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      rw [PhiS_castSucc V c t, PhiS_pos V c _ _ hz]
      unfold rest1
      iintro ⟨⟨⟨R0, R1, R2, R3, R4, R5, R6, R7, R8, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [R0 R1 R2 R3 R4 R5 R6 R7 R8 HS0 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS_castSucc V c t, PhiS_pos V c _ _ hz]
      unfold rest1
      iintro ⟨⟨⟨R0, R1, R2, R3, R4, R5, R6, R7, R8, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [R0 R1 R2 R3 R4 R5 R6 R7 R8 HS0 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 256 := N_1; omega), PhiA1_eq]
  unfold rest1
  iintro ⟨⟨R0, R1, R2, R3, R4, R5, R6, R7, R8, HS0⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexists _; iexact HS0
  iexact Hg

end Region1

end Cert.KernelIdeal.Hand

end
-- ==== Proof.KRun.lean ====
/-
  The whole program: the first pallas_call, three host operations (the magnitude as a row, its quotient by the
  row norms, x flattened to a matrix), the second pallas_call, and the reshape of its result. The buffer contents
  at each boundary are a fold from the launch memory: after a pallas_call its arrays hold what its write-backs
  leave and every other buffer is as entered; after a host stretch every buffer is as its operations leave it.
  Every weakly fair execution runs to the end without a fault, and the final memory holds, at every unscoped
  buffer, the last boundary's contents.
-/
import proofs.«144505_j26989574488653_2_alg».proof.Proof.K0Frame
import proofs.«144505_j26989574488653_2_alg».proof.Proof.K1Frame
import proofs.«144505_j26989574488653_2_alg».proof.Proof.Gen.KernelIdeal.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch (the first call's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first call: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the three host operations (the second call's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second call. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the last reshape: the end. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (adm (F := F) 1).1 ∗ Pipeline.scopedRest spec1 c) : sProp 𝕄)
        ⊢ Pipeline.ΦA spec1 c := by
      unfold Pipeline.ΦA
      iintro ⟨Hp, -, Hr⟩
      isplitl [Hr]; · iexact Hr
      iexact Hp
    exact h1.trans (hin1 (V2 m ρ) c)
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V2 m ρ) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- Every weakly fair execution terminates, nothing faulting, and the final memory holds the last boundary's
    contents at every unscoped buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

/-- A buffer that neither host stretch writes and that is no array of the second call keeps, to the end, what the
    first call left in it. -/
theorem W4_keep (c : Dev nD) (b : Ref sig .tc) (h2 : b ∉ (hostOps2_W : List (Ref sig .tc))) (h1 : b ∉ (hostOps1_W : List (Ref sig .tc)))
    (hs1 : ∀ w, Pipeline.arrRef spec1 w ≠ b) : W4 m ρ c (Proc.devRef .tc b) = W1 m ρ c (Proc.devRef .tc b) :=
  (StableHlo.after_of_writes_sub hostOps2 _ hostOps2_writes h2).trans
    ((W3_of_ne m ρ c b hs1).trans (StableHlo.after_of_writes_sub hostOps1 _ hostOps1_writes h1))

theorem W1_in (c : Dev nD) (w : Fin cfg0.W) (hw : (cfg0.win w).isOut = false) :
    W1 m ρ c (Proc.devRef .tc (Pipeline.arrRef spec0 w)) = V0 m ρ c (Pipeline.arrRef spec0 w) :=
  (W1_arr m ρ c w).trans (((dat0 (V0 m ρ) c).arrAt_in w hw _).trans (A_eq0 (V0 m ρ) c w))

theorem W4_main_arg0 (c : Dev nD) : W4 m ρ c (Proc.devRef .tc main_arg0) = m ((c : Thread nD τ).loc main_arg0) :=
  (W4_keep m ρ c main_arg0 (by decide) (by decide) (by decide)).trans ((W1_of_ne m ρ c main_arg0 (by decide)).trans rfl)
theorem W4_main_arg1 (c : Dev nD) : W4 m ρ c (Proc.devRef .tc main_arg1) = m ((c : Thread nD τ).loc main_arg1) :=
  (W4_keep m ρ c main_arg1 (by decide) (by decide) (by decide)).trans ((W1_in m ρ c 0 rfl).trans rfl)
theorem W4_main_arg2 (c : Dev nD) : W4 m ρ c (Proc.devRef .tc main_arg2) = m ((c : Thread nD τ).loc main_arg2) :=
  (W4_keep m ρ c main_arg2 (by decide) (by decide) (by decide)).trans ((W1_in m ρ c 2 rfl).trans rfl)
theorem W4_main_arg3 (c : Dev nD) : W4 m ρ c (Proc.devRef .tc main_arg3) = m ((c : Thread nD τ).loc main_arg3) :=
  (W4_keep m ρ c main_arg3 (by decide) (by decide) (by decide)).trans ((W1_in m ρ c 1 rfl).trans rfl)
theorem W4_main_arg4 (c : Dev nD) : W4 m ρ c (Proc.devRef .tc main_arg4) = m ((c : Thread nD τ).loc main_arg4) :=
  (W4_keep m ρ c main_arg4 (by decide) (by decide) (by decide)).trans ((W1_of_ne m ρ c main_arg4 (by decide)).trans rfl)

/-- The frame: the program runs to the end without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Hand

end
-- ==== Proof.K0FrameW.lean ====
/-
  The first pallas_call (the effective weight and its row norms): 16 grid points, point j owning rows
  256 j … 256 j + 255. The body loads the point's block of W, its block of the low-rank factor B and the whole
  factor A, forms E = W + B·A, stores E into the first output block and the row norms √(Σ E²), laid out as a
  [1, 256] row, into the second. One control case; every load and store is of a whole staging buffer. Here: the
  blocks, what the body leaves in each output block, the body's triple, the pipeline's proof data and the body
  obligation at every point.
-/
import proofs.«144505_j26989574488653_2_alg».proof.Proof.Gen.Kernel.Launch
import proofs.«144505_j26989574488653_2_alg».proof.Proof.Gen.Kernel.Skeleton
import proofs.«144505_j26989574488653_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's accesses -/

abbrev rW : Rect S256x4096 := Rect.unit (s := S256x4096) ![0, 0] S256x4096.size inb_S256x4096_S256x4096_0_0
abbrev rB : Rect S256x32 := Rect.unit (s := S256x32) ![0, 0] S256x32.size inb_S256x32_S256x32_0_0
abbrev rA : Rect S32x4096 := Rect.unit (s := S32x4096) ![0, 0] S32x4096.size inb_S32x4096_S32x4096_0_0
abbrev rN : Rect S1x256 := Rect.unit (s := S1x256) ![0, 0] S1x256.size inb_S1x256_S1x256_0_0

/-! ## What the body leaves in each output block -/

/-- The first output block after the body: its one store, of E in the storage format. -/
def out0_3 (x0 : Vec F S256x4096 .f32) (x1 : Vec F S256x32 .f32) (x2 : Vec F S32x4096 .f32) : Vec F S256x4096 .bf16 :=
  View.canon [⟨rW, k0_pay2 (View.ld x0 rW) (View.ld x1 rB) (View.ld x2 rA)⟩]

/-- The second output block after the body: its one store, of the row norms as a [1, 256] row. -/
def out0_4 (x0 : Vec F S256x4096 .f32) (x1 : Vec F S256x32 .f32) (x2 : Vec F S32x4096 .f32) : Vec F S1x256 .f32 :=
  View.canon [⟨rN, k0_pay3 (View.ld x0 rW) (View.ld x1 rB) (View.ld x2 rA)⟩]

theorem cover0_3 (p0 : Vec F S256x4096 .bf16) (y : S256x4096.Idx) :
    ∃ pc ∈ ([⟨rW, p0⟩] : List (View.Piece (Elt F) S256x4096 .bf16)), y ∈ pc.1.set :=
  View.cover_of_tiled [⟨rW, p0⟩] S256x4096.size (by rfl) y

theorem cover0_4 (p0 : Vec F S1x256 .f32) (y : S1x256.Idx) :
    ∃ pc ∈ ([⟨rN, p0⟩] : List (View.Piece (Elt F) S1x256 .f32)), y ∈ pc.1.set :=
  View.cover_of_tiled [⟨rN, p0⟩] S1x256.size (by rfl) y

/-! ## The body's triple -/

set_option maxHeartbeats 1000000 in
theorem sound_kernel0 (c : Dev nD) (E : Set ℕ) (i : grid0.Coords) (arg1 : Memref sig .tc .vmem S256x4096 .f32) (harg1 : arg1.IsWhole) (arg2 : Memref sig .tc .vmem S256x32 .f32) (harg2 : arg2.IsWhole) (arg3 : Memref sig .tc .vmem S32x4096 .f32) (harg3 : arg3.IsWhole) (arg4 : Memref sig .tc .vmem S256x4096 .bf16) (harg4 : arg4.IsWhole) (arg5 : Memref sig .tc .vmem S1x256 .f32) (harg5 : arg5.IsWhole)
    (x0 : Vec F S256x4096 .f32) (x1 : Vec F S256x32 .f32) (x2 : Vec F S32x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__effw_kernel i arg1 harg1 arg2 harg2 arg3 harg3 arg4 harg4 arg5 harg5) K := by
  simp only [cc0__effw_kernel_eq_skeleton]; unfold cc0__effw_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

section Region0

variable (V : (c : Dev nD) → (b : Ref sig .tc) → Buf (Elt F) ((c : Thread nD τ).loc b))

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K1BaseW.lean ====
/-
  The second pallas_call (the tiled product with the rescale), first part: what every run of its body is stated over.
  The grid is 4 × 2 × 32 points (i, j, k), k innermost; the body zeroes its accumulator where k = 0, adds the
  product of the point's x-block and weight-block to it at every point, and where k = 31 stores the accumulator
  times the broadcast scale row into the output block. So the output window is stored at the points with
  k = 31 only and left alone elsewhere, and the accumulator is carried from point to point.
-/
import proofs.«144505_j26989574488653_2_alg».proof.Proof.Gen.Kernel.Launch
import proofs.«144505_j26989574488653_2_alg».proof.Proof.Gen.Kernel.Skeleton
import proofs.«144505_j26989574488653_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions, over the grid -/

/-- "k = 0": the body zeroes the accumulator. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)
/-- "k = 31": the body stores the output block. -/
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from k = 31 the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S1024x2048 .f32 := (Memref.whole cc1_stg3_0 : Memref sig .tc .vmem S1024x2048 .f32).view
abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x2048 .f32 := Memref.whole cc1_scratch0
abbrev VS1 : View sig .tc .vmem S1024x2048 .f32 := scM1.view

/-- The scoped buffers the second call does not stage, the accumulator last and at the stated resource. -/
def rest1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ S)

/-- The class invariant with the accumulator owned at some contents. -/
theorem PhiA1_eq (c : Dev nD) :
    (Pipeline.ΦA spec1 c : sProp 𝕄)
      = iprop(rest1 c (iprop(∃ d, owns (c : Thread nD τ) scM1 fullShare d)) ∗ (∃ r, prngReg c r)) := by
  unfold Pipeline.ΦA rest1; rw [scopedRest1_eq]; simp only [scM1, owns_whole]; try rfl

end Cert.Kernel.Hand

end
-- ==== Proof.K1RunAW.lean ====
/-
  The body of the second call at a point with k = 0 (and k ≠ 31): the accumulator is zeroed, then the point's product is added; the output block is not touched. The stores the accumulator ends with are found by running the body.
-/
import proofs.«144505_j26989574488653_2_alg».proof.Proof.K1BaseW

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x128 .f32) (x1 : Vec F S2048x128 .bf16) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__main_kernel i arg3 harg3 arg4 harg4 arg5 harg5 arg6 harg6 arg7 harg7) K } := by
  refine ⟨[], ?_, fun xi3 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K1RunBW.lean ====
/-
  The body of the second call at a point with 0 < k < 31: the point's product is added to the accumulator the point before left; the output block is not touched.
-/
import proofs.«144505_j26989574488653_2_alg».proof.Proof.K1RunAW

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x128 .f32) (x1 : Vec F S2048x128 .bf16) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__main_kernel i arg3 harg3 arg4 harg4 arg5 harg5 arg6 harg6 arg7 harg7) K } := by
  refine ⟨[], ?_, fun xi3 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K1RunCW.lean ====
/-
  The body of the second call at a point with k = 31: the point's product is added to the accumulator, and the accumulator times the broadcast scale row is stored into the output block.
-/
import proofs.«144505_j26989574488653_2_alg».proof.Proof.K1RunBW

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x128 .f32) (x1 : Vec F S2048x128 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__main_kernel i arg3 harg3 arg4 harg4 arg5 harg5 arg6 harg6 arg7 harg7) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.K1FrameW.lean ====
/-
  The second pallas_call, last part: what the accumulator and the output block hold after each point, the
  pipeline's proof data, and the body obligation at every point.
  After point n the accumulator holds the stores of that point's case read back: at k = 0 the product of the
  point's blocks added to zero, otherwise added to what the point before left. The invariant carried from point
  to point is: the other scoped buffers at anything, the accumulator at exactly that contents.
-/
import proofs.«144505_j26989574488653_2_alg».proof.Proof.K1RunCW

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

/-- Case k = 0: nothing is stored into the output block (a placeholder nothing consults). -/
def out1_A_3 (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x128 .f32) (x1 : Vec F S2048x128 .bf16) (x2 : Vec F S1x2048 .f32) : Vec F S1024x2048 .f32 :=
  VO1_3.read (Elt F) (VO1_3.writes (Elt F) VO1_3.junk (kernelRun1_A c i arg3 harg3 arg4 harg4 arg5 harg5 arg6 harg6 arg7 harg7 hc0 hc1 x0 x1 x2).1)

/-- Case k = 0: the stores into the accumulator cover it. -/
theorem scover1_A (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x128 .f32) (x1 : Vec F S2048x128 .bf16) (x2 : Vec F S1x2048 .f32) (y : S1024x2048.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x2048.size (by sl_kernel_rfl) y

/-- Case k = 0: what the accumulator holds afterwards. -/
def sout1_A (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x128 .f32) (x1 : Vec F S2048x128 .bf16) (x2 : Vec F S1x2048 .f32) : Vec F S1024x2048 .f32 :=
  VS1.read (Elt F) (VS1.writes (Elt F) VS1.junk (kernelRun1_A c i arg3 harg3 arg4 harg4 arg5 harg5 arg6 harg6 arg7 harg7 hc0 hc1 x0 x1 x2).2.1)

/-- Case 0 < k < 31: nothing is stored into the output block. -/
def out1_B_3 (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x128 .f32) (x1 : Vec F S2048x128 .bf16) (x2 : Vec F S1x2048 .f32) (xs0 : Vec F S1024x2048 .f32) : Vec F S1024x2048 .f32 :=
  VO1_3.read (Elt F) (VO1_3.writes (Elt F) VO1_3.junk (kernelRun1_B c i arg3 harg3 arg4 harg4 arg5 harg5 arg6 harg6 arg7 harg7 hc0 hc1 x0 x1 x2 xs0).1)

theorem scover1_B (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x128 .f32) (x1 : Vec F S2048x128 .bf16) (x2 : Vec F S1x2048 .f32) (xs0 : Vec F S1024x2048 .f32) (y : S1024x2048.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x2048.size (by sl_kernel_rfl) y

def sout1_B (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x128 .f32) (x1 : Vec F S2048x128 .bf16) (x2 : Vec F S1x2048 .f32) (xs0 : Vec F S1024x2048 .f32) : Vec F S1024x2048 .f32 :=
  VS1.read (Elt F) (VS1.writes (Elt F) VS1.junk (kernelRun1_B c i arg3 harg3 arg4 harg4 arg5 harg5 arg6 harg6 arg7 harg7 hc0 hc1 x0 x1 x2 xs0).2.1)

/-- Case k = 31: the store into the output block covers it. -/
theorem cover1_C_3 (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x128 .f32) (x1 : Vec F S2048x128 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y

/-- Case k = 31: what the output block holds afterwards. -/
def out1_C_3 (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x128 .f32) (x1 : Vec F S2048x128 .bf16) (x2 : Vec F S1x2048 .f32) (xs0 : Vec F S1024x2048 .f32) : Vec F S1024x2048 .f32 :=
  VO1_3.read (Elt F) (VO1_3.writes (Elt F) VO1_3.junk (kernelRun1_C c i arg3 harg3 arg4 harg4 arg5 harg5 arg6 harg6 arg7 harg7 hc0 hc1 x0 x1 x2 xs0).1)

theorem scover1_C (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x128 .f32) (x1 : Vec F S2048x128 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y

def sout1_C (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x128 .f32) (x1 : Vec F S2048x128 .bf16) (x2 : Vec F S1x2048 .f32) (xs0 : Vec F S1024x2048 .f32) : Vec F S1024x2048 .f32 :=
  VS1.read (Elt F) (VS1.writes (Elt F) VS1.junk (kernelRun1_C c i arg3 harg3 arg4 harg4 arg5 harg5 arg6 harg6 arg7 harg7 hc0 hc1 x0 x1 x2 xs0).2.1)

section Region1

variable (V : (c : Dev nD) → (b : Ref sig .tc) → Buf (Elt F) ((c : Thread nD τ).loc b))

/-! ## The accumulation -/

/-- What the output block (first component) and the accumulator (second) hold after the body at position n. -/
def outsAt1 (c : Dev nD) : (n : ℕ) → n < cfg1.N → Vec F S1024x2048 .f32 × Vec F S1024x2048 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 32 = 0 then
      if h1 : (n + 1) % 32 = 31 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 32 = 31 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 32 = 0) (h1 : ¬t.val % 32 = 31) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 32 = 0) (h1 : ¬t.val % 32 = 31) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 32 = 0) (h1 : t.val % 32 = 31) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position n: before the first point the class's; afterwards the accumulator at what the
    point before left, the other scoped buffers at anything, the generator register at some state. -/
def PhiS (c : Dev nD) : (n : ℕ) → n ≤ cfg1.N → sProp 𝕄
  | 0, _ => Pipeline.ΦA spec1 c
  | n + 1, hn => iprop(rest1 c (owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest1 c (owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(rest1 c (owns (c : Thread nD τ) scM1 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]; try rfl
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]; try rfl
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]; try rfl

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 256 := lt_of_lt_of_eq t.isLt (show cfg1.N = 256 from N_1)
  by_cases h0 : t.val % 32 = 0
  · have h1 : ¬t.val % 32 = 31 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS_castSucc V c t, PhiS_zero V c _ _ hz, PhiA1_eq]
      unfold rest1
      iintro ⟨⟨⟨R0, R1, R2, R3, R4, R5, R6, R7, R8, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [R0 R1 R2 R3 R4 R5 R6 R7 R8 HS0 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      unfold rest1
      iintro ⟨⟨⟨R0, R1, R2, R3, R4, R5, R6, R7, R8, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [R0 R1 R2 R3 R4 R5 R6 R7 R8 HS0 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by intro hz; rw [hz] at h0; exact h0 (Nat.zero_mod _)
    by_cases h1 : t.val % 32 = 31
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      rw [PhiS_castSucc V c t, PhiS_pos V c _ _ hz]
      unfold rest1
      iintro ⟨⟨⟨R0, R1, R2, R3, R4, R5, R6, R7, R8, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [R0 R1 R2 R3 R4 R5 R6 R7 R8 HS0 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS_castSucc V c t, PhiS_pos V c _ _ hz]
      unfold rest1
      iintro ⟨⟨⟨R0, R1, R2, R3, R4, R5, R6, R7, R8, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [R0 R1 R2 R3 R4 R5 R6 R7 R8 HS0 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 256 := N_1; omega), PhiA1_eq]
  unfold rest1
  iintro ⟨⟨R0, R1, R2, R3, R4, R5, R6, R7, R8, HS0⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexists _; iexact HS0
  iexact Hg

end Region1

end Cert.Kernel.Hand

end
-- ==== Proof.KRunW.lean ====
/-
  The whole program: the first pallas_call, three host operations (the magnitude as a row, its quotient by the
  row norms, x flattened to a matrix), the second pallas_call, and the reshape of its result. The buffer contents
  at each boundary are a fold from the launch memory: after a pallas_call its arrays hold what its write-backs
  leave and every other buffer is as entered; after a host stretch every buffer is as its operations leave it.
  Every weakly fair execution runs to the end without a fault, and the final memory holds, at every unscoped
  buffer, the last boundary's contents.
-/
import proofs.«144505_j26989574488653_2_alg».proof.Proof.K0FrameW
import proofs.«144505_j26989574488653_2_alg».proof.Proof.K1FrameW
import proofs.«144505_j26989574488653_2_alg».proof.Proof.Gen.Kernel.Regions
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch (the first call's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first call: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the three host operations (the second call's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second call. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the last reshape: the end. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (adm (F := F) 1).1 ∗ Pipeline.scopedRest spec1 c) : sProp 𝕄)
        ⊢ Pipeline.ΦA spec1 c := by
      unfold Pipeline.ΦA
      iintro ⟨Hp, -, Hr⟩
      isplitl [Hr]; · iexact Hr
      iexact Hp
    exact h1.trans (hin1 (V2 m ρ) c)
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V2 m ρ) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- Every weakly fair execution terminates, nothing faulting, and the final memory holds the last boundary's
    contents at every unscoped buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

/-- A buffer that neither host stretch writes and that is no array of the second call keeps, to the end, what the
    first call left in it. -/
theorem W4_keep (c : Dev nD) (b : Ref sig .tc) (h2 : b ∉ (hostOps2_W : List (Ref sig .tc))) (h1 : b ∉ (hostOps1_W : List (Ref sig .tc)))
    (hs1 : ∀ w, Pipeline.arrRef spec1 w ≠ b) : W4 m ρ c (Proc.devRef .tc b) = W1 m ρ c (Proc.devRef .tc b) :=
  (StableHlo.after_of_writes_sub hostOps2 _ hostOps2_writes h2).trans
    ((W3_of_ne m ρ c b hs1).trans (StableHlo.after_of_writes_sub hostOps1 _ hostOps1_writes h1))

theorem W1_in (c : Dev nD) (w : Fin cfg0.W) (hw : (cfg0.win w).isOut = false) :
    W1 m ρ c (Proc.devRef .tc (Pipeline.arrRef spec0 w)) = V0 m ρ c (Pipeline.arrRef spec0 w) :=
  (W1_arr m ρ c w).trans (((dat0 (V0 m ρ) c).arrAt_in w hw _).trans (A_eq0 (V0 m ρ) c w))

theorem W4_main_arg0 (c : Dev nD) : W4 m ρ c (Proc.devRef .tc main_arg0) = m ((c : Thread nD τ).loc main_arg0) :=
  (W4_keep m ρ c main_arg0 (by decide) (by decide) (by decide)).trans ((W1_of_ne m ρ c main_arg0 (by decide)).trans rfl)
theorem W4_main_arg1 (c : Dev nD) : W4 m ρ c (Proc.devRef .tc main_arg1) = m ((c : Thread nD τ).loc main_arg1) :=
  (W4_keep m ρ c main_arg1 (by decide) (by decide) (by decide)).trans ((W1_in m ρ c 0 rfl).trans rfl)
theorem W4_main_arg2 (c : Dev nD) : W4 m ρ c (Proc.devRef .tc main_arg2) = m ((c : Thread nD τ).loc main_arg2) :=
  (W4_keep m ρ c main_arg2 (by decide) (by decide) (by decide)).trans ((W1_in m ρ c 2 rfl).trans rfl)
theorem W4_main_arg3 (c : Dev nD) : W4 m ρ c (Proc.devRef .tc main_arg3) = m ((c : Thread nD τ).loc main_arg3) :=
  (W4_keep m ρ c main_arg3 (by decide) (by decide) (by decide)).trans ((W1_in m ρ c 1 rfl).trans rfl)
theorem W4_main_arg4 (c : Dev nD) : W4 m ρ c (Proc.devRef .tc main_arg4) = m ((c : Thread nD τ).loc main_arg4) :=
  (W4_keep m ρ c main_arg4 (by decide) (by decide) (by decide)).trans ((W1_of_ne m ρ c main_arg4 (by decide)).trans rfl)

/-- The frame: the program runs to the end without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.Kernel.Hand

end
-- ==== Proof.Spec.lean ====
/-
  The mathematics of the two programs, stated once over the extended reals, with no program imported.

  The weight actually applied is  E = W + B·A  (a rank-32 correction of W), entry by entry
      E(o,i) = W(o,i) + Σ_r B(o,r)·A(r,i).
  Each output column o is rescaled by  mag(o) / ‖E(o,·)‖  where ‖E(o,·)‖ = √(Σ_i E(o,i)²).

  The kernel computes   ( Σ_i x(b,s,i)·E(o,i) ) · ( mag(o) / ‖E(o,·)‖ ),
  the reference         ( ( Σ_i x(b,s,i)·W(o,i) + Σ_r (Σ_i x(b,s,i)·A(r,i))·B(o,r) ) / ‖E(o,·)‖ ) · mag(o).
-/
import Idealize.ShloMosaic.PureOps.Ideal
import Idealize.ShloMosaic.Lib.ValueIdx

noncomputable section

open scoped BigOperators

namespace Cert.Dora

open Idealize.ShloMosaic Idealize.ShloMosaic.ValueIdx

abbrev SX : Shape := ⟨3, ![2, 2048, 4096]⟩
abbrev SW : Shape := ⟨2, ![4096, 4096]⟩
abbrev SA : Shape := ⟨2, ![32, 4096]⟩
abbrev SB : Shape := ⟨2, ![4096, 32]⟩
abbrev SM : Shape := ⟨1, ![4096]⟩

/-- Entry (o, i) of the effective weight E = W + B·A. -/
def effW (W : FVec Ideal SW .f32) (A : FVec Ideal SA .f32) (B : FVec Ideal SB .f32) (o i : Fin 4096) : EReal :=
  W (ix2 o i) + ∑ r : Fin 32, B (ix2 o r) * A (ix2 r i)

/-- The squared length of row o of E. -/
def sumSq (W : FVec Ideal SW .f32) (A : FVec Ideal SA .f32) (B : FVec Ideal SB .f32) (o : Fin 4096) : EReal :=
  ∑ i : Fin 4096, effW W A B o i * effW W A B o i

/-- The kernel's result at (b, s, o): x·Eᵀ, then times mag / ‖E(o,·)‖. -/
def kernelOut (x : FVec Ideal SX .f32) (W : FVec Ideal SW .f32) (A : FVec Ideal SA .f32) (B : FVec Ideal SB .f32)
    (mag : FVec Ideal SM .f32) (b : Fin 2) (s : Fin 2048) (o : Fin 4096) : EReal :=
  (∑ i : Fin 4096, x (ix3 b s i) * effW W A B o i) * Ideal.div (mag (ix1 o)) (Ideal.sqrt (sumSq W A B o))

/-- The reference's result at (b, s, o): (x·Wᵀ + (x·Aᵀ)·Bᵀ) / ‖E(o,·)‖, then times mag. -/
def refOut (x : FVec Ideal SX .f32) (W : FVec Ideal SW .f32) (A : FVec Ideal SA .f32) (B : FVec Ideal SB .f32)
    (mag : FVec Ideal SM .f32) (b : Fin 2) (s : Fin 2048) (o : Fin 4096) : EReal :=
  Ideal.div ((∑ i : Fin 4096, x (ix3 b s i) * W (ix2 o i))
      + ∑ r : Fin 32, (∑ i : Fin 4096, x (ix3 b s i) * A (ix2 r i)) * B (ix2 o r))
    (Ideal.sqrt (sumSq W A B o)) * mag (ix1 o)

end Cert.Dora

end
-- ==== Proof.RefValue.lean ====
/-
  The reference program's result, read as the specification's function.

  The reference computes, for every (b, s, o),
      ( ( Σ_i x(b,s,i)·W(o,i) + Σ_r (Σ_i x(b,s,i)·A(r,i))·B(o,r) ) / √(Σ_i E(o,i)²) ) · mag(o),
  with E(o,i) = W(o,i) + Σ_r B(o,r)·A(r,i): two contractions of x (with W, and with A then B), their sum
  divided by the row norm of E — itself a contraction of B with A added to W, squared, summed along the
  row (from the zero word, which is the real 0) and square-rooted, then repeated along the batch and
  sequence axes — and finally the product with mag repeated the same way. Each of its sixteen operations
  is read at an index; the indices the operations read their operands at are those of the specification.
-/
import proofs.«144505_j26989574488653_2_alg».proof.Proof.Spec
import proofs.«144505_j26989574488653_2_alg».proof.Proof.Gen.ReferenceIdeal.Read

noncomputable section

open scoped BigOperators

namespace Cert.Dora

open Idealize.ShloMosaic Idealize.ShloMosaic.TcCoe Idealize.SL.Sem Idealize.ShloMosaic.ValueIdx
open Cert.ReferenceIdeal Cert.ReferenceIdeal.Gen Cert.ReferenceIdeal.Read

/-! ## Where each operation reads its operands -/

/-- x·Wᵀ at (b, s, o) reads x along (b, s, ·). -/
theorem lidx_v0 (b : Fin 2) (s : Fin 2048) (o k : Fin 4096) : lidx_main_v0 (ix3 b s o) k = ix3 b s k :=
  funext fun a => Fin.ext (by match a with | ⟨0, _⟩ => rfl | ⟨1, _⟩ => rfl | ⟨2, _⟩ => rfl)

/-- x·Wᵀ at (b, s, o) reads W along (o, ·). -/
theorem ridx_v0 (b : Fin 2) (s : Fin 2048) (o k : Fin 4096) : ridx_main_v0 (ix3 b s o) k = ix2 o k :=
  funext fun a => Fin.ext (by match a with | ⟨0, _⟩ => rfl | ⟨1, _⟩ => rfl)

/-- x·Aᵀ at (b, s, r) reads x along (b, s, ·). -/
theorem lidx_v1 (b : Fin 2) (s : Fin 2048) (r : Fin 32) (k : Fin 4096) : lidx_main_v1 (ix3 b s r) k = ix3 b s k :=
  funext fun a => Fin.ext (by match a with | ⟨0, _⟩ => rfl | ⟨1, _⟩ => rfl | ⟨2, _⟩ => rfl)

/-- x·Aᵀ at (b, s, r) reads A along (r, ·). -/
theorem ridx_v1 (b : Fin 2) (s : Fin 2048) (r : Fin 32) (k : Fin 4096) : ridx_main_v1 (ix3 b s r) k = ix2 r k :=
  funext fun a => Fin.ext (by match a with | ⟨0, _⟩ => rfl | ⟨1, _⟩ => rfl)

/-- (x·Aᵀ)·Bᵀ at (b, s, o) reads x·Aᵀ along (b, s, ·). -/
theorem lidx_v2 (b : Fin 2) (s : Fin 2048) (o : Fin 4096) (r : Fin 32) : lidx_main_v2 (ix3 b s o) r = ix3 b s r :=
  funext fun a => Fin.ext (by match a with | ⟨0, _⟩ => rfl | ⟨1, _⟩ => rfl | ⟨2, _⟩ => rfl)

/-- (x·Aᵀ)·Bᵀ at (b, s, o) reads B along (o, ·). -/
theorem ridx_v2 (b : Fin 2) (s : Fin 2048) (o : Fin 4096) (r : Fin 32) : ridx_main_v2 (ix3 b s o) r = ix2 o r :=
  funext fun a => Fin.ext (by match a with | ⟨0, _⟩ => rfl | ⟨1, _⟩ => rfl)

/-- B·A at (o, i) reads B along (o, ·). -/
theorem lidx_v3 (o i : Fin 4096) (r : Fin 32) : lidx_main_v3 (ix2 o i) r = ix2 o r :=
  funext fun a => Fin.ext (by match a with | ⟨0, _⟩ => rfl | ⟨1, _⟩ => rfl)

/-- B·A at (o, i) reads A along (·, i). -/
theorem ridx_v3 (o i : Fin 4096) (r : Fin 32) : ridx_main_v3 (ix2 o i) r = ix2 r i :=
  funext fun a => Fin.ext (by match a with | ⟨0, _⟩ => rfl | ⟨1, _⟩ => rfl)

/-- The row sum at o reads the squares along (o, ·). -/
theorem idx_v6 (o k : Fin 4096) : idx_main_v6 (ix1 o) k = ix2 o k :=
  funext fun a => Fin.ext (by match a with | ⟨0, _⟩ => rfl | ⟨1, _⟩ => rfl)

/-- The norm laid out as [1, 1, 4096] reads the norm at its last coordinate. -/
theorem idx_v9 (o : Fin 4096) : idx_main_v9 (ix3 (0 : Fin 1) (0 : Fin 1) o) = ix1 o :=
  funext fun a => Fin.ext (by match a with | ⟨0, _⟩ => rfl)

/-- The norm repeated along batch and sequence reads the [1, 1, 4096] array at (0, 0, o). -/
theorem idx_v10 (b : Fin 2) (s : Fin 2048) (o : Fin 4096) : idx_main_v10 (ix3 b s o) = ix3 (0 : Fin 1) (0 : Fin 1) o :=
  funext fun a => Fin.ext (by match a with | ⟨0, _⟩ => rfl | ⟨1, _⟩ => rfl | ⟨2, _⟩ => rfl)

/-- mag laid out as [1, 1, 4096] reads mag at its last coordinate. -/
theorem idx_v12 (o : Fin 4096) : idx_main_v12 (ix3 (0 : Fin 1) (0 : Fin 1) o) = ix1 o :=
  funext fun a => Fin.ext (by match a with | ⟨0, _⟩ => rfl)

/-- mag repeated along batch and sequence reads the [1, 1, 4096] array at (0, 0, o). -/
theorem idx_v13 (b : Fin 2) (s : Fin 2048) (o : Fin 4096) : idx_main_v13 (ix3 b s o) = ix3 (0 : Fin 1) (0 : Fin 1) o :=
  funext fun a => Fin.ext (by match a with | ⟨0, _⟩ => rfl | ⟨1, _⟩ => rfl | ⟨2, _⟩ => rfl)

/-! ## The last operation's result, index by index -/

/-- The reference's last operation, as a function of the five arguments, is the specification's refOut at
    every (b, s, o). -/
theorem ref_stage_apply (x : FVec Ideal SX .f32) (W : FVec Ideal SW .f32) (A : FVec Ideal SA .f32) (B : FVec Ideal SB .f32)
    (mag : FVec Ideal SM .f32) (b : Fin 2) (s : Fin 2048) (o : Fin 4096) :
    val_main_v14 (F := Ideal) x W A B mag (ix3 b s o) = refOut x W A B mag b s o := by
  simp only [val_main_v14_apply, val_main_v13_apply, val_main_v12_apply, val_main_v11_apply, val_main_v10_apply,
    val_main_v9_apply, val_main_v8_apply, val_main_v7_apply, val_main_v6_apply, val_main_v5_apply, val_main_v4_apply,
    val_main_v3_apply, val_main_v2_apply, val_main_v1_apply, val_main_v0_apply, val_main_cst_apply]
  simp only [lidx_v0, ridx_v0, lidx_v2, ridx_v2, lidx_v1, ridx_v1, idx_v10, idx_v9, idx_v6, lidx_v3, ridx_v3, idx_v13, idx_v12,
    Ideal.mulf_def, Ideal.addf_def, Ideal.hostDivf_def, Ideal.hostUnary_sqrt_def, Ideal.ofBits_def, Ideal.ofBits_zero_f32,
    zero_add]
  rfl

/-- The same, at any index of the result. -/
theorem ref_stage (x : FVec Ideal SX .f32) (W : FVec Ideal SW .f32) (A : FVec Ideal SA .f32) (B : FVec Ideal SB .f32)
    (mag : FVec Ideal SM .f32) :
    val_main_v14 (F := Ideal) x W A B mag = fun j => refOut x W A B mag (j 0) (j 1) (j 2) := by
  funext j
  obtain ⟨b, s, o, rfl⟩ : ∃ (b : Fin 2) (s : Fin 2048) (o : Fin 4096), j = ix3 b s o := ⟨j 0, j 1, j 2, eq_ix3 j⟩
  exact ref_stage_apply x W A B mag b s o

/-! ## The reference's run -/

/-- Every weakly fair execution of the reference terminates with its result array holding refOut of the
    five argument arrays, index by index, and the arguments unchanged. -/
theorem reference_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v14)
          = (fun j => Cert.Dora.refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (j 0) (j 1) (j 2))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono
    (fun _ h c => ⟨(h c).1.trans ((val_main_v14_eq (F := Ideal) _ _ _ _ _).trans (ref_stage _ _ _ _ _)), (h c).2⟩)
    (Cert.ReferenceIdeal.Value.run (F := Ideal) m' ρ')

end Cert.Dora

end
-- ==== Proof.Algebra.lean ====
/-
  The algebraic law between the two arrangements of the specification, on the extended reals.

  With E = W + B·A, the kernel forms  (Σ_i x_i·E(o,i)) · (mag(o) / ‖E(o,·)‖)  and the reference forms
  ((Σ_i x_i·W(o,i) + Σ_r (Σ_i x_i·A(r,i))·B(o,r)) / ‖E(o,·)‖) · mag(o).

  When every entry is a real number, every sum here is (the coercion of) a real sum, and over ℝ
      Σ_i x_i·(W(o,i) + Σ_r B(o,r)·A(r,i)) = Σ_i x_i·W(o,i) + Σ_r (Σ_i x_i·A(r,i))·B(o,r)
  by distributivity and an exchange of the two finite sums.  When moreover the squared length n = Σ_i E(o,i)² is
  positive, its square root is a positive real, a division by it is the product with the real 1/√n, and both sides
  are the real number S·mag(o)/√n.  (With an infinite entry, or a zero row of E, the two sides can differ:
  distributivity fails at ⊤ + ⊥, and a division by zero is decided by the sign of the dividend alone.)
-/
import proofs.«144505_j26989574488653_2_alg».proof.Proof.Spec

noncomputable section

open scoped BigOperators

namespace Cert.Dora

open Idealize.ShloMosaic Idealize.ShloMosaic.ValueIdx

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over ℝ: applying the corrected weight W + B·A to x is applying W, plus applying A and then B. -/
theorem real_law {ι κ : Type*} [Fintype ι] [Fintype κ] (x w : ι → ℝ) (a : κ → ι → ℝ) (b : κ → ℝ) :
    ∑ i, x i * (w i + ∑ k, b k * a k i) = ∑ i, x i * w i + ∑ k, (∑ i, x i * a k i) * b k := by
  simp only [mul_add, Finset.sum_add_distrib, Finset.mul_sum, Finset.sum_mul]
  refine congrArg (∑ i, x i * w i + ·) ?_
  rw [Finset.sum_comm]
  exact Finset.sum_congr rfl fun k _ => Finset.sum_congr rfl fun i _ => by ring

/-- For real s, m and a positive real n:  (s / √n) · m = s · (m / √n)  on the extended reals. -/
theorem scale_comm (s m n : ℝ) (hn : 0 < n) :
    Ideal.div (s : EReal) (Ideal.sqrt (n : EReal)) * (m : EReal)
      = (s : EReal) * Ideal.div (m : EReal) (Ideal.sqrt (n : EReal)) := by
  have hq : Real.sqrt n ≠ 0 := (Real.sqrt_pos.mpr hn).ne'
  rw [Ideal.sqrt_coe, if_neg (not_lt.mpr hn.le), Ideal.div_coe hq, Ideal.div_coe hq]
  simp only [← EReal.coe_mul]
  exact congrArg Real.toEReal (by ring)

/-- THE LAW, over abstract finite index types: for real entries and a positive squared length of the corrected
    weight's row, dividing the two-path product by the row's length and then scaling is the one-path product times
    the quotient of the scale by the length. -/
theorem law {ι κ : Type*} [Fintype ι] [Fintype κ] (x w : ι → EReal) (a : κ → ι → EReal) (b : κ → EReal) (m : EReal)
    (hx : ∀ i, ∃ r : ℝ, x i = (r : EReal)) (hw : ∀ i, ∃ r : ℝ, w i = (r : EReal))
    (ha : ∀ k i, ∃ r : ℝ, a k i = (r : EReal)) (hb : ∀ k, ∃ r : ℝ, b k = (r : EReal))
    (hm : ∃ r : ℝ, m = (r : EReal))
    (hn : 0 < ∑ i, (w i + ∑ k, b k * a k i) * (w i + ∑ k, b k * a k i)) :
    Ideal.div ((∑ i, x i * w i) + ∑ k, (∑ i, x i * a k i) * b k)
        (Ideal.sqrt (∑ i, (w i + ∑ k, b k * a k i) * (w i + ∑ k, b k * a k i))) * m
      = (∑ i, x i * (w i + ∑ k, b k * a k i))
        * Ideal.div m (Ideal.sqrt (∑ i, (w i + ∑ k, b k * a k i) * (w i + ∑ k, b k * a k i))) := by
  choose X hX using hx
  choose W hW using hw
  choose A hA using ha
  choose B hB using hb
  obtain ⟨M, rfl⟩ := hm
  -- every sum is the coercion of the real sum of the witnesses
  have hN : ∑ i, (w i + ∑ k, b k * a k i) * (w i + ∑ k, b k * a k i)
      = ((∑ i, (W i + ∑ k, B k * A k i) * (W i + ∑ k, B k * A k i) : ℝ) : EReal) := by
    simp only [hW, hA, hB, EReal.coe_add, EReal.coe_mul, coe_sum]
  have hS1 : (∑ i, x i * w i) + ∑ k, (∑ i, x i * a k i) * b k
      = ((∑ i, X i * W i + ∑ k, (∑ i, X i * A k i) * B k : ℝ) : EReal) := by
    simp only [hX, hW, hA, hB, EReal.coe_add, EReal.coe_mul, coe_sum]
  have hS2 : ∑ i, x i * (w i + ∑ k, b k * a k i)
      = ((∑ i, X i * (W i + ∑ k, B k * A k i) : ℝ) : EReal) := by
    simp only [hX, hW, hA, hB, EReal.coe_add, EReal.coe_mul, coe_sum]
  rw [hN] at hn
  rw [hN, hS1, hS2, real_law X W A B]
  exact scale_comm _ _ _ (EReal.coe_pos.mp hn)

/-- THE TWO ARRANGEMENTS AGREE: under finite inputs and positive squared row lengths of the effective weight, the
    reference's result at (b, s, o) is the kernel's. -/
theorem refOut_eq_kernelOut (x : FVec Ideal SX .f32) (W : FVec Ideal SW .f32) (A : FVec Ideal SA .f32) (B : FVec Ideal SB .f32) (mag : FVec Ideal SM .f32)
    (hx : ∀ j, ∃ r : ℝ, x j = (r : EReal)) (hW : ∀ j, ∃ r : ℝ, W j = (r : EReal)) (hA : ∀ j, ∃ r : ℝ, A j = (r : EReal)) (hB : ∀ j, ∃ r : ℝ, B j = (r : EReal)) (hmag : ∀ j, ∃ r : ℝ, mag j = (r : EReal))
    (hpos : ∀ o : Fin 4096, 0 < sumSq W A B o) (b : Fin 2) (s : Fin 2048) (o : Fin 4096) :
    refOut x W A B mag b s o = kernelOut x W A B mag b s o := by
  unfold refOut kernelOut sumSq effW
  exact law (fun i => x (ix3 b s i)) (fun i => W (ix2 o i)) (fun r i => A (ix2 r i)) (fun r => B (ix2 o r))
    (mag (ix1 o)) (fun _ => hx _) (fun _ => hW _) (fun _ _ => hA _) (fun _ => hB _) (hmag _) (hpos o)

end Cert.Dora

end
-- ==== Proof.LibFiniteEntries.lean ====
/-
  Reading a "every entry is finite" precondition back, on the extended reals, for any shape.

  A precondition conjunct `jnp.all(jnp.abs(a) < inf)` prints as a reduction by `and`, from the constant 1 into a
  scalar, of the comparison of |a| with the splat of the pattern 0x7F800000. That pattern denotes +∞; on the extended
  reals |v| = max v (-v) is below +∞ exactly when v is a real number. So a conjunct that evaluates to 1 says that
  every entry of the array is (the coercion of) a real number.
-/
import Idealize.ShloMosaic.PureOps.Ideal
import Idealize.ShloMosaic.Lib.ReduceAll
import Idealize.ShloMosaic.Lib.Pipeline.Value
import Idealize.ShloMosaic.Lib.ValueIdx

noncomputable section

namespace Cert.Lib.FiniteEntries

open Idealize.ShloMosaic Idealize.ShloMosaic.ValueIdx

/-- The pattern 0x7F800000 denotes +∞. -/
theorem ofBits_inf : Ideal.ofBits .f32 0x7F800000#32 = (⊤ : EReal) := by
  simp [Ideal.ofBits, Ideal.ieee]

/-- An extended real whose absolute value compares below +∞ is a real number. -/
theorem real_of_abs_lt_inf (v : EReal)
    (h : FloatOps.cmpf (F := Ideal) (φ := .f32) .olt (FloatOps.hostAbsf (F := Ideal) (φ := .f32) v)
      (Ideal.ofBits .f32 0x7F800000#32) = 1#1) : ∃ r : ℝ, v = (r : EReal) := by
  rw [ofBits_inf] at h
  have h' : max v (-v) < (⊤ : EReal) := by
    by_contra hn
    have h0 : FloatOps.cmpf (F := Ideal) (φ := .f32) .olt (FloatOps.hostAbsf (F := Ideal) (φ := .f32) v) (⊤ : EReal)
        = 0#1 := by
      show BitVec.ofBool (decide (max v (-v) < (⊤ : EReal))) = 0#1
      rw [decide_eq_false hn]; rfl
    rw [h0] at h
    exact absurd h (by decide)
  induction v using EReal.rec with
  | bot => exact absurd h' (by simp)
  | coe r => exact ⟨r, rfl⟩
  | top => exact absurd h' (by simp)

/-- The scalar shape has one index. -/
instance : Subsingleton (⟨0, ![]⟩ : Shape).Idx := ⟨fun a b => funext fun d => d.elim0⟩

/-- ONE CONJUNCT OF THE PRECONDITION, READ BACK: if the reduction by `and` of "|a| < +∞" over all axes is 1, every
    entry of the array a is a real number. -/
theorem real_of_all {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi (cmpf .olt (Host.absf a)
        (broadcastInDim s ![] hb (constant (F := Ideal) ⟨0, ![]⟩ .f32 0x7F800000#32)))
      (constantI (⟨0, ![]⟩ : Shape) 1 1#1) hr hu ix0 = 1#1) (i : s.Idx) : ∃ r : ℝ, a i = (r : EReal) := by
  have hi := Host.reduce_andi_all _ _ hr hu ix0 e i
  have hs : broadcastInDim s ![] hb (constant (F := Ideal) ⟨0, ![]⟩ .f32 0x7F800000#32) i
      = Ideal.ofBits .f32 0x7F800000#32 := broadcastInDim_apply _ hb _ i ix0 (fun d => d.elim0)
  have h2 : FloatOps.cmpf (F := Ideal) (φ := .f32) .olt (FloatOps.hostAbsf (F := Ideal) (φ := .f32) (a i))
      (broadcastInDim s ![] hb (constant (F := Ideal) ⟨0, ![]⟩ .f32 0x7F800000#32) i) = 1#1 := hi
  rw [hs] at h2
  exact real_of_abs_lt_inf (a i) h2

end Cert.Lib.FiniteEntries

end
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.LibHostMatrix.lean ====
/-
  Host-side readings of vectors and matrices at an index, for any sizes: a vector reshaped to a one-row matrix, a
  matrix transposed, a scalar constant broadcast to any shape, and — on the extended reals — the host's sum of a
  matrix along its last axis as the initial value plus the finite sum of the row.
-/
import Idealize.ShloMosaic.Lib.ValueIdx
import Idealize.ShloMosaic.Lib.Pipeline.Value
import Idealize.ShloMosaic.PureOps.Ideal.Laws

noncomputable section

open scoped BigOperators

namespace Cert.Lib.HostMatrix

open Idealize.ShloMosaic Idealize.ShloMosaic.ValueIdx

/-- A vector reshaped to a one-row matrix: entry (0, q) is the vector's entry q. -/
theorem rowOfVec_apply {α : Type} {b : Nat} (v : (⟨1, ![b]⟩ : Shape).Idx → α)
    (h : (⟨1, ![b]⟩ : Shape).ShapeCasts ⟨2, ![1, b]⟩) (z : Fin 1) (q : Fin b) :
    shapeCast (⟨2, ![1, b]⟩ : Shape) v h (ix2 z q) = v (ix1 q) := by
  refine shapeCast_apply v h (ix2 z q) (ix1 q) ?_
  rw [Shape.rowMajor_val_one, Shape.rowMajor_val_two]
  show q.val = z.val * b + q.val
  have hz : z.val = 0 := by have := z.isLt; omega
  rw [hz, Nat.zero_mul, Nat.zero_add]

/-- A matrix transposed: entry (p, q) of the transpose is entry (q, p). -/
theorem transposed_apply {α : Type} {a b : Nat} (x : (⟨2, ![a, b]⟩ : Shape).Idx → α)
    (h : (⟨2, ![a, b]⟩ : Shape).Transposes [(1 : Fin 2), 0] ⟨2, ![b, a]⟩) (p : Fin b) (q : Fin a) :
    transpose (⟨2, ![b, a]⟩ : Shape) [(1 : Fin 2), 0] x h (ix2 p q) = x (ix2 q p) :=
  transpose_apply [(1 : Fin 2), 0] x h (ix2 p q) (ix2 q p) (fun d => match d with
    | ⟨0, _⟩ => rfl
    | ⟨1, _⟩ => rfl)

/-- A scalar constant broadcast to any shape: every entry is the constant's value. -/
theorem splat_apply {s : Shape} (h : (⟨0, ![]⟩ : Shape).BroadcastsInDim s (![] : Fin 0 → Fin s.rank)) (w : BitVec 32)
    (j : s.Idx) : broadcastInDim s ![] h (constant (F := Ideal) ⟨0, ![]⟩ .f32 w) j = Ideal.ofBits .f32 w :=
  broadcastInDim_apply _ h _ j ix0 (fun a => a.elim0)

/-- Over a row index p, the source index of a reduction along the last axis with coordinate k appends k. -/
theorem lift_lastAxis {a b : ℕ} (h : (⟨2, ![a, b]⟩ : Shape).Reduces [(1 : Fin 2)] ⟨1, ![a]⟩) (p : Fin a)
    (k : Fin ((⟨2, ![a, b]⟩ : Shape).size 1)) : h.lift (ix1 p) k = ix2 p (k : Fin b) := by
  funext c; apply Fin.ext; rw [h.lift_val]
  match c with
  | ⟨0, _⟩ => rfl
  | ⟨1, _⟩ => rfl

/-- The host's sum of a matrix along its last axis, at row p: the initial value plus the finite sum of the row. -/
theorem hostSum_last2 {a b : ℕ} {φ : FTy} (x : FVec Ideal ⟨2, ![a, b]⟩ φ) (v : (⟨0, ![]⟩ : Shape).Idx → Ideal φ)
    (h' : (⟨2, ![a, b]⟩ : Shape).ReducesTo [(1 : Fin 2)] ⟨1, ![a]⟩)
    (h : (⟨2, ![a, b]⟩ : Shape).Reduces [(1 : Fin 2)] ⟨1, ![a]⟩) (hu : 0 < (⟨0, ![]⟩ : Shape).numel) (p : Fin a) :
    Host.reduceAdd x v h' hu (ix1 p) = v ix0 + ∑ k : Fin b, x (ix2 p k) := by
  show Ideal.hostReduceAdd h' x (v (Shape.Idx.first hu)) (ix1 p) = _
  rw [Ideal.hostReduceAdd_single h' h, eq_ix0 (Shape.Idx.first hu)]
  exact congrArg (v ix0 + ·) (Finset.sum_congr rfl fun k _ => congrArg x (lift_lastAxis h p k))

end Cert.Lib.HostMatrix

end
-- ==== Proof.PreFacts.lean ====
/-
  What the precondition says, read back on the extended reals.

  The precondition is a conjunction of six conditions.  The first five say, array by array, that every entry has an
  absolute value below +∞: every entry of x, W, A, B and mag is a real number.  The sixth says that, for every row o
  of the effective weight E = W + B·A, the sum over i of E(o,i)·E(o,i), accumulated from 0, is greater than 0: every
  row of E has a positive squared length.

  The sixth condition computes B·A as a plain matrix product, entry (o, i) being Σ_r B(o,r)·A(r,i), adds W entry by
  entry, squares entry by entry and sums each row from the initial value 0; that is the specification's squared row
  length.
-/
import proofs.«144505_j26989574488653_2_alg».proof.Proof.Spec
import proofs.«144505_j26989574488653_2_alg».proof.Pre_finite_inputs
import proofs.«144505_j26989574488653_2_alg».proof.Proof.LibFiniteEntries
import proofs.«144505_j26989574488653_2_alg».proof.Proof.LibPlainDot
import proofs.«144505_j26989574488653_2_alg».proof.Proof.LibHostMatrix

noncomputable section

open scoped BigOperators

namespace Cert.Dora

open Idealize.ShloMosaic Idealize.ShloMosaic.ValueIdx

/-- A comparison "greater than" on the extended reals that came out 1 says the strict order. -/
theorem lt_of_cmp_ogt (a b : EReal) (h : FloatOps.cmpf (F := Ideal) (φ := .f32) .ogt a b = 1#1) : b < a := by
  by_contra hn
  have h0 : FloatOps.cmpf (F := Ideal) (φ := .f32) .ogt a b = 0#1 := by
    show BitVec.ofBool (decide (b < a)) = 0#1
    rw [decide_eq_false hn]; rfl
  rw [h0] at h
  exact absurd h (by decide)

section
variable [Cert.Pre_finite_inputs.Facts]
open Cert.Pre_finite_inputs

/-- The precondition's squared row length — the row sum from 0 of (W + B·A)·(W + B·A), with B·A the plain matrix
    product — is, at row o, the specification's squared length of row o of the effective weight. -/
theorem rowSq_apply (W : FVec Ideal SW .f32) (A : FVec Ideal SA .f32) (B : FVec Ideal SB .f32) (o : Fin 4096) :
    Host.reduceAdd (F := Ideal)
        (mulf (addf W (Host.dotGeneral (F := Ideal) dot_S4096x32_S32x4096_S4096x4096_1_0_0_1_n_n none B A))
          (addf W (Host.dotGeneral (F := Ideal) dot_S4096x32_S32x4096_S4096x4096_1_0_0_1_n_n none B A)))
        (constant (F := Ideal) S_ .f32 0x00000000#32) Facts.reducesTo_S4096x4096_S4096_d1 Facts.h_S_ (ix1 o)
      = sumSq W A B o := by
  have hR : (⟨2, ![4096, 4096]⟩ : Shape).Reduces [(1 : Fin 2)] ⟨1, ![4096]⟩ := by decide
  refine (Cert.Lib.HostMatrix.hostSum_last2 _ _ Facts.reducesTo_S4096x4096_S4096_d1 hR Facts.h_S_ o).trans ?_
  rw [constant_apply, Ideal.ofBits_zero_f32, zero_add]
  unfold sumSq effW
  refine Finset.sum_congr rfl fun i _ => ?_
  -- entry (o, i) of B·A is Σ_r B(o,r)·A(r,i)
  have hd : Host.dotGeneral (F := Ideal) dot_S4096x32_S32x4096_S4096x4096_1_0_0_1_n_n none B A (ix2 o i)
      = ∑ r : Fin 32, B (ix2 o r) * A (ix2 r i) :=
    Cert.Bridge.dotGeneral_plain dot_S4096x32_S32x4096_S4096x4096_1_0_0_1_n_n rfl rfl rfl rfl rfl rfl none .single B A o i
  rw [mulf_apply, addf_apply]
  exact congrArg (fun t => (W (ix2 o i) + t) * (W (ix2 o i) + t)) hd

/-- THE PRECONDITION'S FACTS: every entry of the five inputs is a real number, and every row of the effective
    weight has a positive squared length. -/
theorem pre_facts (x : FVec Ideal SX .f32) (W : FVec Ideal SW .f32) (A : FVec Ideal SA .f32) (B : FVec Ideal SB .f32) (mag : FVec Ideal SM .f32)
    (h : Cert.Pre_finite_inputs.fn (F := Ideal) x W A B mag = fun _ => 1#1) :
    (∀ j, ∃ r : ℝ, x j = (r : EReal)) ∧ (∀ j, ∃ r : ℝ, W j = (r : EReal)) ∧ (∀ j, ∃ r : ℝ, A j = (r : EReal)) ∧ (∀ j, ∃ r : ℝ, B j = (r : EReal)) ∧ (∀ j, ∃ r : ℝ, mag j = (r : EReal)) ∧ (∀ o : Fin 4096, 0 < sumSq W A B o) := by
  have h0 := congrFun h ix0
  dsimp only [Cert.Pre_finite_inputs.fn, Cert.Pre_finite_inputs.fn_part1, andi] at h0
  simp only [IntOp.andi_eq_one] at h0
  obtain ⟨⟨⟨⟨⟨h1, h2⟩, h3⟩, h4⟩, h5⟩, h6⟩ := h0
  refine ⟨Cert.Lib.FiniteEntries.real_of_all x _ _ _ h1, Cert.Lib.FiniteEntries.real_of_all W _ _ _ h2,
    Cert.Lib.FiniteEntries.real_of_all A _ _ _ h3, Cert.Lib.FiniteEntries.real_of_all B _ _ _ h4,
    Cert.Lib.FiniteEntries.real_of_all mag _ _ _ h5, fun o => ?_⟩
  have h6' := Host.reduce_andi_all _ _ _ _ ix0 h6 (ix1 o)
  have hlt := lt_of_cmp_ogt _ _ ((cmpf_apply _ _ _ _).symm.trans h6')
  rw [rowSq_apply, Cert.Lib.HostMatrix.splat_apply, Ideal.ofBits_zero_f32] at hlt
  exact hlt

end

end Cert.Dora

end
-- ==== Proof.K0Value.lean ====
/-
  What the first loop leaves in its two output arrays, as whole-array functions of what its input arrays held
  when it was entered (at the exact reals extended by ±∞).

  At a point t the body sees rows 256 t … 256 t + 255 of W and of B and all of A.  Entry (p, q) of the block it
  forms is  W(256 t + p, q) + Σ_k B(256 t + p, k)·A(k, q) : the contraction runs over the 32 columns of B, which
  are all inside the block, so the block of E is exactly rows 256 t … of the whole E = W + B·A.  The second
  store holds, at lane r of its one row, √(Σ_q E(256 t + r, q)²) : the sum runs along a whole row of E, again
  inside the block.  Point t writes these back to rows 256 t … of the first array and to lanes 256 t … of the
  second; the 16 points cover both arrays, row r by point r / 256.
-/
import proofs.«144505_j26989574488653_2_alg».proof.Proof.K0Frame
import proofs.«144505_j26989574488653_2_alg».proof.Proof.Spec
import proofs.«144505_j26989574488653_2_alg».proof.Proof.LibPlainDot
import Idealize.ShloMosaic.Lib.Pipeline.Value
import Idealize.ShloMosaic.PureOps.Ideal.Laws

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-! ## The body's arithmetic at an index of a block -/

/-- Entry (p, q) of the block of E formed from a block x0 of W, a block x1 of B and x2 = A. -/
def blkE (x0 : Vec Ideal S256x4096 .f32) (x1 : Vec Ideal S256x32 .f32) (x2 : Vec Ideal S32x4096 .f32)
    (p : Fin 256) (q : Fin 4096) : EReal :=
  x0 (ix2 p q) + ∑ k : Fin 32, x1 (ix2 p k) * x2 (ix2 k q)

/-- The sum x0 + x1·x2 the body forms, at (p, q): the product into the zero accumulator is the plain sum over the
    32 contracted columns. -/
theorem pay1_apply (x0 : Vec Ideal S256x4096 .f32) (x1 : Vec Ideal S256x32 .f32) (x2 : Vec Ideal S32x4096 .f32)
    (p : Fin 256) (q : Fin 4096) : k0_pay1 x0 x1 x2 (ix2 p q) = blkE x0 x1 x2 p q := by
  unfold k0_pay1 blkE
  exact congrArg (x0 (ix2 p q) + ·)
    (Cert.Bridge.matmul_zero_plain dot_S256x32_S32x4096_S256x4096_1_0_0_1_n_n rfl rfl rfl rfl rfl rfl (some .fp32) x1 x2 p q)

/-- What is stored to the first output is the same entry: narrowing the format changes nothing here. -/
theorem pay2_apply (x0 : Vec Ideal S256x4096 .f32) (x1 : Vec Ideal S256x32 .f32) (x2 : Vec Ideal S32x4096 .f32)
    (p : Fin 256) (q : Fin 4096) : k0_pay2 x0 x1 x2 (ix2 p q) = blkE x0 x1 x2 p q := by
  unfold k0_pay2
  exact pay1_apply x0 x1 x2 p q

/-- What is stored to the second output, at lane r of its single row: the square root of the sum, along row r of the
    block, of the squared entries.  (The sum over the last axis is read at row r; the column [256] → [256, 1] and its
    transpose to a row [1, 256] only move that number to position (0, r).) -/
theorem pay3_apply (x0 : Vec Ideal S256x4096 .f32) (x1 : Vec Ideal S256x32 .f32) (x2 : Vec Ideal S32x4096 .f32)
    (z : Fin 1) (r : Fin 256) :
    k0_pay3 x0 x1 x2 (ix2 z r) = Ideal.sqrt (∑ q : Fin 4096, blkE x0 x1 x2 r q * blkE x0 x1 x2 r q) := by
  unfold k0_pay3
  refine (transpose_apply [1, 0] _ transposes_S256x1_p1_0_S1x256 (ix2 z r) (ix2 r z) ?_).trans ?_
  · intro b
    match b with
    | ⟨0, _⟩ => rfl
    | ⟨1, _⟩ => rfl
  refine congrArg Ideal.sqrt ?_
  refine (shapeCast_apply _ shapeCasts_S256_S256x1 (ix2 r z) (ix1 r) ?_).trans ?_
  · rw [Shape.rowMajor_val_one, Shape.rowMajor_val_two]
    show r.val = r.val * 1 + z.val
    omega
  refine (Ideal.multiReduction_add_single (φ := .f32) _ 0x00000000#32 reduces_S256x4096_S256 _ _ (ix1 r)).trans ?_
  refine Finset.sum_congr rfl fun (q : Fin 4096) _ => ?_
  have e : reduces_S256x4096_S256.lift (ix1 r) q = ix2 r q := funext fun a => Fin.ext (by
    match a with
    | ⟨0, _⟩ => rfl
    | ⟨1, _⟩ => rfl)
  rw [e]
  exact congrArg₂ (· * ·) (pay1_apply x0 x1 x2 r q) (pay1_apply x0 x1 x2 r q)

/-! ## The same at any index of a block, and in terms of the whole arrays -/

theorem pay2_at (x0 : Vec Ideal S256x4096 .f32) (x1 : Vec Ideal S256x32 .f32) (x2 : Vec Ideal S32x4096 .f32)
    (y : S256x4096.Idx) : k0_pay2 x0 x1 x2 y = blkE x0 x1 x2 (y 0) (y 1) := by
  obtain ⟨p, q, rfl⟩ : ∃ (p : Fin 256) (q : Fin 4096), y = ix2 p q := ⟨y 0, y 1, eq_ix2 y⟩
  exact pay2_apply x0 x1 x2 p q

theorem pay3_at (x0 : Vec Ideal S256x4096 .f32) (x1 : Vec Ideal S256x32 .f32) (x2 : Vec Ideal S32x4096 .f32)
    (y : S1x256.Idx) :
    k0_pay3 x0 x1 x2 y = Ideal.sqrt (∑ q : Fin 4096, blkE x0 x1 x2 (y 1) q * blkE x0 x1 x2 (y 1) q) := by
  obtain ⟨z, r, rfl⟩ : ∃ (z : Fin 1) (r : Fin 256), y = ix2 z r := ⟨y 0, y 1, eq_ix2 y⟩
  exact pay3_apply x0 x1 x2 z r

/-- If the three blocks are rows ρ(·) of W, rows ρ(·) of B and all of A, the block entry (p, q) is entry
    (ρ p, q) of the whole E = W + B·A: the contraction index k runs over all 32 columns of B on both sides. -/
theorem blkE_eq (W : FVec Ideal Cert.Dora.SW .f32) (A : FVec Ideal Cert.Dora.SA .f32) (B : FVec Ideal Cert.Dora.SB .f32)
    (x0 : Vec Ideal S256x4096 .f32) (x1 : Vec Ideal S256x32 .f32) (x2 : Vec Ideal S32x4096 .f32) (ρ : Fin 256 → Fin 4096)
    (h0 : ∀ (p : Fin 256) (q : Fin 4096), x0 (ix2 p q) = W (ix2 (ρ p) q))
    (h1 : ∀ (p : Fin 256) (k : Fin 32), x1 (ix2 p k) = B (ix2 (ρ p) k))
    (h2 : ∀ (k : Fin 32) (q : Fin 4096), x2 (ix2 k q) = A (ix2 k q))
    (p : Fin 256) (q : Fin 4096) : blkE x0 x1 x2 p q = Cert.Dora.effW W A B (ρ p) q := by
  unfold blkE Cert.Dora.effW
  rw [h0]
  exact congrArg (W (ix2 (ρ p) q) + ·) (Finset.sum_congr rfl fun k _ => by rw [h1, h2])

/-! ## The blocks as parts of the arrays -/

section Arrays

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t, in blocks: W, B and the first output move down one block of rows
    per point; A stays; the second output moves right one block of lanes per point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val :=
  (by decide +kernel : ∀ t : Fin grid0.N, _)

/-- The block of W at point t is rows 256 t … of W. -/
theorem blockW (c : Dev nD) (t : Fin cfg0.N) (y : S256x4096.Idx) (k : S4096x4096.Idx)
    (hk0 : (k 0).val = 256 * t.val + (y 0).val) (hk1 : (k 1).val = (y 1).val) :
    (iblk0 V c 0 t : Vec Ideal S256x4096 .f32) y = (V c main_arg1 : S4096x4096.Idx → EReal) k := by
  obtain ⟨e0, e1, -⟩ := idx_facts t
  unfold iblk0
  rw [View.read_apply]
  show V c main_arg1 _ = V c main_arg1 _
  congr 1
  funext a
  apply Fin.ext
  match a with
  | ⟨0, _⟩ => show win0_0.index t 0 * 256 + 1 * (y 0).val = (k 0).val; rw [e0, hk0]; omega
  | ⟨1, _⟩ => show win0_0.index t 1 * 4096 + 1 * (y 1).val = (k 1).val; rw [e1, hk1]; omega

/-- The block of B at point t is rows 256 t … of B. -/
theorem blockB (c : Dev nD) (t : Fin cfg0.N) (y : S256x32.Idx) (k : S4096x32.Idx)
    (hk0 : (k 0).val = 256 * t.val + (y 0).val) (hk1 : (k 1).val = (y 1).val) :
    (iblk0 V c 1 t : Vec Ideal S256x32 .f32) y = (V c main_arg3 : S4096x32.Idx → EReal) k := by
  obtain ⟨-, -, e0, e1, -⟩ := idx_facts t
  unfold iblk0
  rw [View.read_apply]
  show V c main_arg3 _ = V c main_arg3 _
  congr 1
  funext a
  apply Fin.ext
  match a with
  | ⟨0, _⟩ => show win0_1.index t 0 * 256 + 1 * (y 0).val = (k 0).val; rw [e0, hk0]; omega
  | ⟨1, _⟩ => show win0_1.index t 1 * 32 + 1 * (y 1).val = (k 1).val; rw [e1, hk1]; omega

/-- The block of A at every point is A. -/
theorem blockA (c : Dev nD) (t : Fin cfg0.N) (y : S32x4096.Idx) :
    (iblk0 V c 2 t : Vec Ideal S32x4096 .f32) y = (V c main_arg2 : S32x4096.Idx → EReal) y := by
  obtain ⟨-, -, -, -, e0, e1, -⟩ := idx_facts t
  unfold iblk0
  rw [View.read_apply]
  show V c main_arg2 _ = V c main_arg2 _
  congr 1
  funext a
  apply Fin.ext
  match a with
  | ⟨0, _⟩ => show win0_2.index t 0 * 32 + 1 * (y 0).val = (y 0).val; rw [e0]; omega
  | ⟨1, _⟩ => show win0_2.index t 1 * 4096 + 1 * (y 1).val = (y 1).val; rw [e1]; omega

/-- So at point t the block entry (p, q) is entry (256 t + p, q) of the whole E. -/
theorem blkE_point (c : Dev nD) (t : Fin cfg0.N) (ht : t.val < 16) (p : Fin 256) (q : Fin 4096) :
    blkE (iblk0 V c 0 t) (iblk0 V c 1 t) (iblk0 V c 2 t) p q
      = Cert.Dora.effW (V c main_arg1) (V c main_arg2) (V c main_arg3) ⟨256 * t.val + p.val, by omega⟩ q :=
  blkE_eq (V c main_arg1) (V c main_arg2) (V c main_arg3) (iblk0 V c 0 t) (iblk0 V c 1 t) (iblk0 V c 2 t)
    (fun p => ⟨256 * t.val + p.val, by omega⟩)
    (fun p q => blockW V c t (ix2 p q) (ix2 ⟨256 * t.val + p.val, by omega⟩ q) rfl rfl)
    (fun p k => blockB V c t (ix2 p k) (ix2 ⟨256 * t.val + p.val, by omega⟩ k) rfl rfl)
    (fun k q => blockA V c t (ix2 k q)) p q

end Arrays

/-! ## What each point writes back, the cover, and the two arrays after the loop -/

section Final

variable (V : (c : Dev nD) → (b : Ref sig .tc) → Buf (Elt Ideal) ((c : Thread nD τ).loc b))

/-- The whole effective weight E = W + B·A as an array over the arrays the loop found. -/
abbrev effArr (c : Dev nD) : S4096x4096.Idx → EReal :=
  fun j => Cert.Dora.effW (V c main_arg1) (V c main_arg2) (V c main_arg3) (j 0) (j 1)

/-- The row of the lengths of E's rows. -/
abbrev normArr (c : Dev nD) : S1x4096.Idx → EReal :=
  fun j => Ideal.sqrt (Cert.Dora.sumSq (V c main_arg1) (V c main_arg2) (V c main_arg3) (j 1))

theorem lt16 (t : Fin cfg0.N) : t.val < 16 := lt_of_lt_of_eq t.isLt N_0

/-- Point t writes back rows 256 t … of E. -/
theorem flushed3_eq (c : Dev nD) (t : Fin cfg0.N) :
    (dat0 V c).flushed 3 t = ((cfg0.win 3).blk t).view.read (Elt Ideal) (effArr V c) := by
  show (cfg0.win 3).cut (grid0.coords t) ((dat0 V c).after 3 t) = _
  rw [after0_3]
  unfold out0_3
  rw [View.canon_unit_zero hz]
  simp only [View.ld_unit_zero (S := S256x4096) hz, View.ld_unit_zero (S := S256x32) hz, View.ld_unit_zero (S := S32x4096) hz]
  have ht := lt16 t
  obtain ⟨-, -, -, -, -, -, e0, e1, -⟩ := idx_facts t
  funext j
  show k0_pay2 (iblk0 V c 0 t) (iblk0 V c 1 t) (iblk0 V c 2 t) j = effArr V c (((cfg0.win 3).blk t).view.emb j)
  refine (pay2_at (iblk0 V c 0 t) (iblk0 V c 1 t) (iblk0 V c 2 t) j).trans ?_
  refine (blkE_point V c t ht (j 0) (j 1)).trans ?_
  refine congrArg₂ (Cert.Dora.effW (V c main_arg1) (V c main_arg2) (V c main_arg3)) (Fin.ext ?_) (Fin.ext ?_)
  · show 256 * t.val + (j 0).val = win0_3.index t 0 * 256 + 1 * (j 0).val
    rw [e0]; omega
  · show (j 1).val = win0_3.index t 1 * 4096 + 1 * (j 1).val
    rw [e1]; omega

/-- An index of the first output array lies in point t's block iff its row is among rows 256 t …. -/
theorem mem_blk3 (t : Fin cfg0.N) (i : S4096x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v0_0).slice (win0_3.rect t)).set ↔ _
  rw [View.set_slice_whole, Rect.mem_set_unit]
  exact Iff.rfl

/-- Row r is written by point r / 256. -/
theorem cover3 (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : (i 0).val / 256 < cfg0.N := lt_of_lt_of_eq (by omega : (i 0).val / 256 < 16) N_0.symm
  obtain ⟨-, -, -, -, -, -, e0, e1, -⟩ := idx_facts ⟨(i 0).val / 256, hN⟩
  refine ⟨⟨(i 0).val / 256, hN⟩, flush0_3 _, ?_⟩
  rw [mem_blk3]
  intro a
  match a with
  | ⟨0, _⟩ =>
    show win0_3.index ⟨(i 0).val / 256, hN⟩ 0 * 256 ≤ (i 0).val ∧ (i 0).val < win0_3.index ⟨(i 0).val / 256, hN⟩ 0 * 256 + 256
    rw [e0]; show (i 0).val / 256 * 256 ≤ (i 0).val ∧ (i 0).val < (i 0).val / 256 * 256 + 256; omega
  | ⟨1, _⟩ =>
    show win0_3.index ⟨(i 0).val / 256, hN⟩ 1 * 4096 ≤ (i 1).val ∧ (i 1).val < win0_3.index ⟨(i 0).val / 256, hN⟩ 1 * 4096 + 4096
    rw [e1]; omega

/-- THE FIRST OUTPUT ARRAY after all 16 points: the effective weight, entry by entry. -/
theorem effW_array (c : Dev nD) :
    (dat0 V c).arrAt 3 cfg0.N = fun j => Cert.Dora.effW (V c main_arg1) (V c main_arg2) (V c main_arg3) (j 0) (j 1) :=
  (dat0 V c).arrAt_eq_of_cover 3 (effArr V c) (fun t _ => flushed3_eq V c t) cover3

/-- Point t writes back lanes 256 t … of the row of lengths. -/
theorem flushed4_eq (c : Dev nD) (t : Fin cfg0.N) :
    (dat0 V c).flushed 4 t = ((cfg0.win 4).blk t).view.read (Elt Ideal) (normArr V c) := by
  show (cfg0.win 4).cut (grid0.coords t) ((dat0 V c).after 4 t) = _
  rw [after0_4]
  unfold out0_4
  rw [View.canon_unit_zero hz]
  simp only [View.ld_unit_zero (S := S256x4096) hz, View.ld_unit_zero (S := S256x32) hz, View.ld_unit_zero (S := S32x4096) hz]
  have ht := lt16 t
  obtain ⟨-, -, -, -, -, -, -, -, e0, e1⟩ := idx_facts t
  funext j
  show k0_pay3 (iblk0 V c 0 t) (iblk0 V c 1 t) (iblk0 V c 2 t) j = normArr V c (((cfg0.win 4).blk t).view.emb j)
  refine (pay3_at (iblk0 V c 0 t) (iblk0 V c 1 t) (iblk0 V c 2 t) j).trans ?_
  refine congrArg Ideal.sqrt ?_
  have hj1 : (j 1).val < 256 := (j 1).isLt
  have hr : (⟨256 * t.val + (j 1).val, by omega⟩ : Fin 4096) = ((cfg0.win 4).blk t).view.emb j 1 := Fin.ext (by
    show 256 * t.val + (j 1).val = win0_4.index t 1 * 256 + 1 * (j 1).val
    rw [e1]; omega)
  rw [← hr]
  unfold Cert.Dora.sumSq
  exact Finset.sum_congr rfl fun q _ =>
    congrArg₂ (· * ·) (blkE_point V c t ht (j 1) q) (blkE_point V c t ht (j 1) q)

/-- An index of the second output array lies in point t's block iff its lane is among lanes 256 t …. -/
theorem mem_blk4 (t : Fin cfg0.N) (i : S1x4096.Idx) :
    i ∈ ((cfg0.win 4).blk t).view.set ↔ ∀ a : Fin 2, win0_4.index t a * S1x256.size a ≤ (i a).val ∧ (i a).val < win0_4.index t a * S1x256.size a + S1x256.size a := by
  show i ∈ ((View.whole main_v0_1).slice (win0_4.rect t)).set ↔ _
  rw [View.set_slice_whole, Rect.mem_set_unit]
  exact Iff.rfl

/-- Lane r is written by point r / 256. -/
theorem cover4 (i : S1x4096.Idx) :
    ∃ t : Fin cfg0.N, (cfg0.win 4).flush t = true ∧ i ∈ ((cfg0.win 4).blk t).view.set := by
  have hi0 : (i 0).val < 1 := (i 0).isLt
  have hi1 : (i 1).val < 4096 := (i 1).isLt
  have hN : (i 1).val / 256 < cfg0.N := lt_of_lt_of_eq (by omega : (i 1).val / 256 < 16) N_0.symm
  obtain ⟨-, -, -, -, -, -, -, -, e0, e1⟩ := idx_facts ⟨(i 1).val / 256, hN⟩
  refine ⟨⟨(i 1).val / 256, hN⟩, flush0_4 _, ?_⟩
  rw [mem_blk4]
  intro a
  match a with
  | ⟨0, _⟩ =>
    show win0_4.index ⟨(i 1).val / 256, hN⟩ 0 * 1 ≤ (i 0).val ∧ (i 0).val < win0_4.index ⟨(i 1).val / 256, hN⟩ 0 * 1 + 1
    rw [e0]; omega
  | ⟨1, _⟩ =>
    show win0_4.index ⟨(i 1).val / 256, hN⟩ 1 * 256 ≤ (i 1).val ∧ (i 1).val < win0_4.index ⟨(i 1).val / 256, hN⟩ 1 * 256 + 256
    rw [e1]; show (i 1).val / 256 * 256 ≤ (i 1).val ∧ (i 1).val < (i 1).val / 256 * 256 + 256; omega

/-- THE SECOND OUTPUT ARRAY after all 16 points: at lane o, the length √(Σ_i E(o,i)²) of row o of E. -/
theorem norm_array (c : Dev nD) :
    (dat0 V c).arrAt 4 cfg0.N = fun j => Ideal.sqrt (Cert.Dora.sumSq (V c main_arg1) (V c main_arg2) (V c main_arg3) (j 1)) :=
  (dat0 V c).arrAt_eq_of_cover 4 (normArr V c) (fun t _ => flushed4_eq V c t) cover4

end Final

end Cert.KernelIdeal.Hand

end
-- ==== Proof.K1Blocks.lean ====
/-
  Where the second call's input blocks sit in their arrays. The grid's points are (i, j, k), k innermost, point
  number t = 64 i + 32 j + k. At point t the x-window's block is block (i, k) of X in blocks of 1024 × 128, so its
  entry (p, d) is X at (1024 i + p, 128 k + d); the weight-window's block is block (j, k) of the weights in blocks of
  2048 × 128, entry (q, d) the weights at (2048 j + q, 128 k + d); the scale-window's block is block (0, j) of the scale
  row in blocks of 1 × 2048, entry (0, q) the scale at column 2048 j + q; the output block is block (i, j) in blocks
  of 1024 × 2048.
-/
import proofs.«144505_j26989574488653_2_alg».proof.Proof.K1Frame
import Idealize.ShloMosaic.Lib.ValueIdx
import Idealize.ShloMosaic.Lib.Pipeline.Value

set_option maxRecDepth 16384
set_option pp.maxSteps 5000
set_option pp.deepTerms false

noncomputable section

open scoped BigOperators

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-! ## Where the blocks sit -/

/-- The four windows' block indices at point t = 64 i + 32 j + k: (i, k), (j, k), (0, j), (i, j). -/
theorem idx_facts : ∀ t : Fin cfg1.N,
    win1_0.index t (0 : Fin 2) = t.val / 64 ∧ win1_0.index t (1 : Fin 2) = t.val % 32
    ∧ win1_1.index t (0 : Fin 2) = t.val / 32 % 2 ∧ win1_1.index t (1 : Fin 2) = t.val % 32
    ∧ win1_2.index t (0 : Fin 2) = 0 ∧ win1_2.index t (1 : Fin 2) = t.val / 32 % 2
    ∧ win1_3.index t (0 : Fin 2) = t.val / 64 ∧ win1_3.index t (1 : Fin 2) = t.val / 32 % 2 :=
  (by decide +kernel : ∀ t : Fin grid1.N, _)

/-- The three operand arrays as the call finds them, over their literal shapes. -/
abbrev XA (c : Dev nD) : S4096x4096.Idx → EReal := V c main_v3
abbrev EA (c : Dev nD) : S4096x4096.Idx → EReal := V c main_v0_0
abbrev SA (c : Dev nD) : S1x4096.Idx → EReal := V c main_v2

/-- The three input blocks at point t, over their literal shapes. -/
abbrev xb (c : Dev nD) (t : Fin cfg1.N) : S1024x128.Idx → EReal := iblk1 V c 0 t
abbrev wb (c : Dev nD) (t : Fin cfg1.N) : S2048x128.Idx → EReal := iblk1 V c 1 t
abbrev sb (c : Dev nD) (t : Fin cfg1.N) : S1x2048.Idx → EReal := iblk1 V c 2 t

/-- The x-block at point t, entry (p, d), is X at (1024 i + p, 128 k + d). -/
theorem iblk0_apply (c : Dev nD) (t : Fin cfg1.N) (p : Fin 1024) (d : Fin 128) (r n : Fin 4096)
    (hr : r.val = 1024 * (t.val / 64) + p.val) (hn : n.val = 128 * (t.val % 32) + d.val) :
    xb V c t (ix2 p d) = XA V c (ix2 r n) := by
  obtain ⟨e0, e1, -⟩ := idx_facts t
  unfold xb iblk1
  rw [View.read_apply]
  show V c main_v3 _ = V c main_v3 _
  refine congrArg (V c main_v3) (funext fun a => Fin.ext ?_)
  match a with
  | ⟨0, _⟩ => show win1_0.index t 0 * 1024 + 1 * p.val = r.val; rw [e0, hr]; omega
  | ⟨1, _⟩ => show win1_0.index t 1 * 128 + 1 * d.val = n.val; rw [e1, hn]; omega

/-- The weight-block at point t, entry (q, d), is the weights at (2048 j + q, 128 k + d). -/
theorem iblk1_apply (c : Dev nD) (t : Fin cfg1.N) (q : Fin 2048) (d : Fin 128) (o n : Fin 4096)
    (ho : o.val = 2048 * (t.val / 32 % 2) + q.val) (hn : n.val = 128 * (t.val % 32) + d.val) :
    wb V c t (ix2 q d) = EA V c (ix2 o n) := by
  obtain ⟨-, -, e2, e3, -⟩ := idx_facts t
  unfold wb iblk1
  rw [View.read_apply]
  show V c main_v0_0 _ = V c main_v0_0 _
  refine congrArg (V c main_v0_0) (funext fun a => Fin.ext ?_)
  match a with
  | ⟨0, _⟩ => show win1_1.index t 0 * 2048 + 1 * q.val = o.val; rw [e2, ho]; omega
  | ⟨1, _⟩ => show win1_1.index t 1 * 128 + 1 * d.val = n.val; rw [e3, hn]; omega

/-- The scale block at point t, entry (0, q), is the scale row at column 2048 j + q. -/
theorem iblk2_apply (c : Dev nD) (t : Fin cfg1.N) (q : Fin 2048) (o : Fin 4096)
    (ho : o.val = 2048 * (t.val / 32 % 2) + q.val) :
    sb V c t (ix2 (0 : Fin 1) q) = SA V c (ix2 (0 : Fin 1) o) := by
  obtain ⟨-, -, -, -, e4, e5, -⟩ := idx_facts t
  unfold sb iblk1
  rw [View.read_apply]
  show V c main_v2 _ = V c main_v2 _
  refine congrArg (V c main_v2) (funext fun a => Fin.ext ?_)
  match a with
  | ⟨0, _⟩ => show win1_2.index t 0 * 1 + 1 * 0 = 0; rw [e4]
  | ⟨1, _⟩ => show win1_2.index t 1 * 2048 + 1 * q.val = o.val; rw [e5, ho]; omega

end Cert.KernelIdeal.HandValue

end
-- ==== Proof.K1Pieces.lean ====
/-
  The second call's body, case by case, as values: what the accumulator and the output block hold after a
  point is the payload of the point's last covering store, a function of the point's three input blocks and of
  what the accumulator held before. Where k = 0 the accumulator is first zeroed and read back, so the product
  is added to the zero block; elsewhere it is added to what the point before left; where k = 31 the output
  block takes the new accumulator times the scale row.
-/
import proofs.«144505_j26989574488653_2_alg».proof.Proof.K1Frame
import Idealize.ShloMosaic.Lib.Pipeline.Value
import Idealize.ShloMosaic.Lib.Tactic

set_option maxRecDepth 16384
set_option pp.maxSteps 5000
set_option pp.deepTerms false

noncomputable section

namespace Cert.KernelIdeal.HandValue

open Idealize.ShloMosaic Idealize.ShloMosaic.TcCoe Idealize.ShloMosaic.Tactic Idealize.SL.Sem
open Cert.KernelIdeal Cert.KernelIdeal.Gen Cert.KernelIdeal.Hand

variable {F : FTy → Type} [FloatOps F]

theorem hz2 : (![0, 0] : Fin 2 → Nat) = fun _ => 0 := funext fun a => by fin_cases a <;> rfl

/-- 0 < k < 31: the accumulator ends at the product added to what it held. -/
theorem sout_B (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x128 .f32) (x1 : Vec F S2048x128 .bf16) (x2 : Vec F S1x2048 .f32) (xs0 : Vec F S1024x2048 .f32) :
    sout1_B c i arg3 harg3 arg4 harg4 arg5 harg5 arg6 harg6 arg7 harg7 hc0 hc1 x0 x1 x2 xs0 = k1_pay2 x0 x1 xs0 := by
  unfold sout1_B
  rw [View.read_writes_eq_canon _ _ _ (scover1_B c i arg3 harg3 arg4 harg4 arg5 harg5 arg6 harg6 arg7 harg7 hc0 hc1 x0 x1 x2 xs0)]
  unfold kernelRun1_B
  dsimp only
  rw [View.canon_unit_zero hz2]
  simp only [View.readAt_eq_ld, harg3.read_unread, harg4.read_unread, harg7.read_unread,
    View.ld_unit_zero (S := S1024x128) hz2, View.ld_unit_zero (S := S2048x128) hz2, View.ld_unit_zero (S := S1024x2048) hz2]

/-- k = 31: the accumulator ends at the product added to what it held. -/
theorem sout_C (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x128 .f32) (x1 : Vec F S2048x128 .bf16) (x2 : Vec F S1x2048 .f32) (xs0 : Vec F S1024x2048 .f32) :
    sout1_C c i arg3 harg3 arg4 harg4 arg5 harg5 arg6 harg6 arg7 harg7 hc0 hc1 x0 x1 x2 xs0 = k1_pay2 x0 x1 xs0 := by
  unfold sout1_C
  rw [View.read_writes_eq_canon _ _ _ (scover1_C c i arg3 harg3 arg4 harg4 arg5 harg5 arg6 harg6 arg7 harg7 hc0 hc1 x0 x1 x2 xs0)]
  unfold kernelRun1_C
  dsimp only
  sl_unfold_words
  rw [View.canon_unit_zero hz2]
  simp only [View.readAt_eq_ld, harg3.read_unread, harg4.read_unread, harg5.read_unread, harg7.read_unread,
    View.ld_unit_zero (S := S1024x128) hz2, View.ld_unit_zero (S := S2048x128) hz2, View.ld_unit_zero (S := S1024x2048) hz2,
    View.ld_unit_zero (S := S1x2048) hz2]

/-- k = 31: the output block ends at the new accumulator times the scale row. -/
theorem out_C (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x128 .f32) (x1 : Vec F S2048x128 .bf16) (x2 : Vec F S1x2048 .f32) (xs0 : Vec F S1024x2048 .f32) :
    out1_C_3 c i arg3 harg3 arg4 harg4 arg5 harg5 arg6 harg6 arg7 harg7 hc0 hc1 x0 x1 x2 xs0 = k1_pay3 (k1_pay2 x0 x1 xs0) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero hz2, View.readCov_unit_zero (S := S1024x2048) _ hz2]
  simp only [View.readAt_eq_ld, harg3.read_unread, harg4.read_unread, harg5.read_unread, harg7.read_unread,
    View.ld_unit_zero (S := S1024x128) hz2, View.ld_unit_zero (S := S2048x128) hz2, View.ld_unit_zero (S := S1024x2048) hz2,
    View.ld_unit_zero (S := S1x2048) hz2]

/-- k = 0: the accumulator is zeroed, read back, and ends at the product added to the zero block. -/
theorem sout_A (c : Dev nD) (i : grid1.Coords) (arg3 : Memref sig .tc .vmem S1024x128 .f32) (harg3 : arg3.IsWhole) (arg4 : Memref sig .tc .vmem S2048x128 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x128 .f32) (x1 : Vec F S2048x128 .bf16) (x2 : Vec F S1x2048 .f32) :
    sout1_A c i arg3 harg3 arg4 harg4 arg5 harg5 arg6 harg6 arg7 harg7 hc0 hc1 x0 x1 x2 = k1_pay2 x0 x1 k1_pay1 := by
  unfold sout1_A
  rw [View.read_writes_eq_canon _ _ _ (scover1_A c i arg3 harg3 arg4 harg4 arg5 harg5 arg6 harg6 arg7 harg7 hc0 hc1 x0 x1 x2)]
  unfold kernelRun1_A
  dsimp only
  sl_unfold_words
  rw [View.canon_cons_unit_zero (S := S1024x2048) hz2, View.readCov_unit_zero (S := S1024x2048) _ hz2]
  simp only [View.readAt_eq_ld, harg3.read_unread, harg4.read_unread, harg5.read_unread, harg7.read_unread,
    View.ld_unit_zero (S := S1024x128) hz2, View.ld_unit_zero (S := S2048x128) hz2, View.ld_unit_zero (S := S1024x2048) hz2,
    View.ld_unit_zero (S := S1x2048) hz2]

end Cert.KernelIdeal.HandValue

end
-- ==== Proof.LibAttentionDots.lean ====
/-
  Contraction sums of the matrix products of an attention layer, for any sizes, on the extended reals.

  * A rank-2 product whose right operand is contracted on its LAST axis, `[A,K] × [B,K] → [A,B]`: at output index
    (p, q) the sum over k of L (p, k) * R (q, k); with it a matmul into the zero accumulator and a host dot_general.
  * A projection `[B,S,D] × [N,D] → [B,S,N]` (einsum `bsd,nd→bsn`): at (b, s, n) the sum over k of
    L (b, s, k) * R (n, k).
  * The scores `[B,H,Q,D] × [B,H,K,D] → [B,H,Q,K]` with batch axes 0 and 1 (einsum `bhqd,bhkd→bhqk`): at
    (b, h, q, k) the sum over d of L (b, h, q, d) * R (b, h, k, d).
  * The weighted values `[B,H,Q,K] × [B,H,K,D] → [B,H,Q,D]` with batch axes 0 and 1 (einsum `bhqk,bhkd→bhqd`): at
    (b, h, q, d) the sum over k of L (b, h, q, k) * R (b, h, k, d).

  Each takes the dimension numbers as a record with six list hypotheses (closed by `rfl` on a printed record).
-/
import Idealize.ShloMosaic.PureOps.Ideal.Laws
import Idealize.ShloMosaic.Lib.ValueIdx

noncomputable section

open scoped BigOperators

namespace Cert.Lib.AttentionDots

open Idealize.ShloMosaic Idealize.ShloMosaic.ValueIdx

/-! ## Rank 2, the right operand contracted on its last axis -/

theorem trhs_idx {A K B : Nat} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 q k := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- The contraction sum at (p, q): the sum over k of L (p, k) * R (q, k). -/
theorem trhs_sum {A K B : Nat} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (L : (⟨2, ![A, K]⟩ : Shape).Idx → EReal) (R : (⟨2, ![B, K]⟩ : Shape).Idx → EReal) (p : Fin A) (q : Fin B) :
    ∑ κ : d.contr.Idx, L (d.lhsIdx (ix2 p q) κ) * R (d.rhsIdx (ix2 p q) κ) = ∑ k : Fin K, L (ix2 p k) * R (ix2 q k) := by
  obtain ⟨hr, hs, h⟩ := trhs_idx d hlc hrc hln hrn hlb hrb
  rw [← Equiv.sum_comp (contrEquiv1 d K hr hs).symm]
  exact Finset.sum_congr rfl fun k _ => by rw [(h p q k).1, (h p q k).2]

/-- A matmul of these dimension numbers into the zero accumulator, read at (p, q). -/
theorem matmul_zero_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q)
      = ∑ k : Fin K, lhs (ix2 p k) * rhs (ix2 q k) :=
  (Ideal.matmul_constant_zero_apply d prec lhs rhs (ix2 p q)).trans (trhs_sum d hlc hrc hln hrn hlb hrb lhs rhs p q)

/-- A host dot_general of these dimension numbers, read at (p, q). -/
theorem dotGeneral_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (sched : HostSchedule) (lhs : FVec Ideal ⟨2, ![A, K]⟩ φ₁)
    (rhs : FVec Ideal ⟨2, ![B, K]⟩ φ₂) (p : Fin A) (q : Fin B) :
    FloatOps.dotGeneral d prec sched lhs rhs (ix2 p q) = ∑ k : Fin K, lhs (ix2 p k) * rhs (ix2 q k) :=
  (Ideal.dotGeneral_apply d prec sched lhs rhs (ix2 p q)).trans (trhs_sum d hlc hrc hln hrn hlb hrb lhs rhs p q)

/-! ## The projection `bsd,nd→bsn` -/

theorem proj_idx {B S D N : Nat} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = []) :
    ∃ (hr : d.contr.rank = 1) (hs : d.contr.size ⟨0, by omega⟩ = D), ∀ (b : Fin B) (s : Fin S) (n : Fin N) (k : Fin D),
      d.lhsIdx (ix3 b s n) ((contrEquiv1 d D hr hs).symm k) = ix3 b s k ∧
      d.rhsIdx (ix3 b s n) ((contrEquiv1 d D hr hs).symm k) = ix2 n k := by
  obtain ⟨lc, rc, ln, rn, lb, rb, wf⟩ := d
  simp only at hlc hrc hln hrn hlb hrb
  subst hlc hrc hln hrn hlb hrb
  refine ⟨rfl, rfl, fun b s n k => ⟨?_, ?_⟩⟩
  · funext a
    match a with
    | ⟨0, _⟩ => exact Fin.ext rfl
    | ⟨1, _⟩ => exact Fin.ext rfl
    | ⟨2, _⟩ => exact Fin.ext rfl
  · funext a
    match a with
    | ⟨0, _⟩ => exact Fin.ext rfl
    | ⟨1, _⟩ => exact Fin.ext rfl

/-- A host dot_general `bsd,nd→bsn`, read at (b, s, n): the sum over k of L (b, s, k) * R (n, k). -/
theorem dotGeneral_proj {B S D N : Nat} {φ₁ φ₂ : FTy} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = [])
    (prec : Option ContractPrecision) (sched : HostSchedule) (lhs : FVec Ideal ⟨3, ![B, S, D]⟩ φ₁)
    (rhs : FVec Ideal ⟨2, ![N, D]⟩ φ₂) (b : Fin B) (s : Fin S) (n : Fin N) :
    FloatOps.dotGeneral d prec sched lhs rhs (ix3 b s n) = ∑ k : Fin D, lhs (ix3 b s k) * rhs (ix2 n k) := by
  obtain ⟨hr, hs, h⟩ := proj_idx d hlc hrc hln hrn hlb hrb
  refine (Ideal.dotGeneral_apply d prec sched lhs rhs (ix3 b s n)).trans ?_
  rw [← Equiv.sum_comp (contrEquiv1 d D hr hs).symm]
  exact Finset.sum_congr rfl fun k _ => by rw [(h b s n k).1, (h b s n k).2]

/-! ## The scores `bhqd,bhkd→bhqk` -/

theorem scores_idx {B H Q K D : Nat} (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1]) :
    ∃ (hr : d.contr.rank = 1) (hs : d.contr.size ⟨0, by omega⟩ = D),
      ∀ (b : Fin B) (h : Fin H) (q : Fin Q) (k : Fin K) (e : Fin D),
      d.lhsIdx (ix4 b h q k) ((contrEquiv1 d D hr hs).symm e) = ix4 b h q e ∧
      d.rhsIdx (ix4 b h q k) ((contrEquiv1 d D hr hs).symm e) = ix4 b h k e := by
  obtain ⟨lc, rc, ln, rn, lb, rb, wf⟩ := d
  simp only at hlc hrc hln hrn hlb hrb
  subst hlc hrc hln hrn hlb hrb
  refine ⟨rfl, rfl, fun b h q k e => ⟨?_, ?_⟩⟩
  · funext a
    match a with
    | ⟨0, _⟩ => exact Fin.ext rfl
    | ⟨1, _⟩ => exact Fin.ext rfl
    | ⟨2, _⟩ => exact Fin.ext rfl
    | ⟨3, _⟩ => exact Fin.ext rfl
  · funext a
    match a with
    | ⟨0, _⟩ => exact Fin.ext rfl
    | ⟨1, _⟩ => exact Fin.ext rfl
    | ⟨2, _⟩ => exact Fin.ext rfl
    | ⟨3, _⟩ => exact Fin.ext rfl

/-- A host dot_general `bhqd,bhkd→bhqk`, read at (b, h, q, k): the sum over e of L (b, h, q, e) * R (b, h, k, e). -/
theorem dotGeneral_scores {B H Q K D : Nat} {φ₁ φ₂ : FTy}
    (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1])
    (prec : Option ContractPrecision) (sched : HostSchedule) (lhs : FVec Ideal ⟨4, ![B, H, Q, D]⟩ φ₁)
    (rhs : FVec Ideal ⟨4, ![B, H, K, D]⟩ φ₂) (b : Fin B) (h : Fin H) (q : Fin Q) (k : Fin K) :
    FloatOps.dotGeneral d prec sched lhs rhs (ix4 b h q k) = ∑ e : Fin D, lhs (ix4 b h q e) * rhs (ix4 b h k e) := by
  obtain ⟨hr, hs, hx⟩ := scores_idx d hlc hrc hln hrn hlb hrb
  refine (Ideal.dotGeneral_apply d prec sched lhs rhs (ix4 b h q k)).trans ?_
  rw [← Equiv.sum_comp (contrEquiv1 d D hr hs).symm]
  exact Finset.sum_congr rfl fun e _ => by rw [(hx b h q k e).1, (hx b h q k e).2]

/-! ## The weighted values `bhqk,bhkd→bhqd` -/

theorem values_idx {B H Q K D : Nat} (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1]) :
    ∃ (hr : d.contr.rank = 1) (hs : d.contr.size ⟨0, by omega⟩ = K),
      ∀ (b : Fin B) (h : Fin H) (q : Fin Q) (e : Fin D) (k : Fin K),
      d.lhsIdx (ix4 b h q e) ((contrEquiv1 d K hr hs).symm k) = ix4 b h q k ∧
      d.rhsIdx (ix4 b h q e) ((contrEquiv1 d K hr hs).symm k) = ix4 b h k e := by
  obtain ⟨lc, rc, ln, rn, lb, rb, wf⟩ := d
  simp only at hlc hrc hln hrn hlb hrb
  subst hlc hrc hln hrn hlb hrb
  refine ⟨rfl, rfl, fun b h q e k => ⟨?_, ?_⟩⟩
  · funext a
    match a with
    | ⟨0, _⟩ => exact Fin.ext rfl
    | ⟨1, _⟩ => exact Fin.ext rfl
    | ⟨2, _⟩ => exact Fin.ext rfl
    | ⟨3, _⟩ => exact Fin.ext rfl
  · funext a
    match a with
    | ⟨0, _⟩ => exact Fin.ext rfl
    | ⟨1, _⟩ => exact Fin.ext rfl
    | ⟨2, _⟩ => exact Fin.ext rfl
    | ⟨3, _⟩ => exact Fin.ext rfl

/-- A host dot_general `bhqk,bhkd→bhqd`, read at (b, h, q, e): the sum over k of L (b, h, q, k) * R (b, h, k, e). -/
theorem dotGeneral_values {B H Q K D : Nat} {φ₁ φ₂ : FTy}
    (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1])
    (prec : Option ContractPrecision) (sched : HostSchedule) (lhs : FVec Ideal ⟨4, ![B, H, Q, K]⟩ φ₁)
    (rhs : FVec Ideal ⟨4, ![B, H, K, D]⟩ φ₂) (b : Fin B) (h : Fin H) (q : Fin Q) (e : Fin D) :
    FloatOps.dotGeneral d prec sched lhs rhs (ix4 b h q e) = ∑ k : Fin K, lhs (ix4 b h q k) * rhs (ix4 b h k e) := by
  obtain ⟨hr, hs, hx⟩ := values_idx d hlc hrc hln hrn hlb hrb
  refine (Ideal.dotGeneral_apply d prec sched lhs rhs (ix4 b h q e)).trans ?_
  rw [← Equiv.sum_comp (contrEquiv1 d K hr hs).symm]
  exact Finset.sum_congr rfl fun k _ => by rw [(hx b h q e k).1, (hx b h q e k).2]

/-! ## The same, spelled as programs print them (`matmul`, `Host.dotGeneral`): the forms a rewrite finds -/

theorem matmul_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    matmul d prec lhs rhs (constant ⟨2, ![A, B]⟩ .f32 0x00000000#32) (ix2 p q) = ∑ k : Fin K, lhs (ix2 p k) * rhs (ix2 q k) :=
  matmul_zero_trhs d hlc hrc hln hrn hlb hrb prec lhs rhs p q

theorem hostDot_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    Host.dotGeneral d prec lhs rhs (ix2 p q) = ∑ k : Fin K, lhs (ix2 p k) * rhs (ix2 q k) :=
  dotGeneral_trhs d hlc hrc hln hrn hlb hrb prec .single lhs rhs p q

theorem hostDot_proj {B S D N : Nat} {φ₁ φ₂ : FTy} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = [])
    (prec : Option ContractPrecision) (lhs : FVec Ideal ⟨3, ![B, S, D]⟩ φ₁) (rhs : FVec Ideal ⟨2, ![N, D]⟩ φ₂)
    (b : Fin B) (s : Fin S) (n : Fin N) :
    Host.dotGeneral d prec lhs rhs (ix3 b s n) = ∑ k : Fin D, lhs (ix3 b s k) * rhs (ix2 n k) :=
  dotGeneral_proj d hlc hrc hln hrn hlb hrb prec .single lhs rhs b s n

theorem hostDot_scores {B H Q K D : Nat} {φ₁ φ₂ : FTy}
    (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1])
    (prec : Option ContractPrecision) (lhs : FVec Ideal ⟨4, ![B, H, Q, D]⟩ φ₁) (rhs : FVec Ideal ⟨4, ![B, H, K, D]⟩ φ₂)
    (b : Fin B) (h : Fin H) (q : Fin Q) (k : Fin K) :
    Host.dotGeneral d prec lhs rhs (ix4 b h q k) = ∑ e : Fin D, lhs (ix4 b h q e) * rhs (ix4 b h k e) :=
  dotGeneral_scores d hlc hrc hln hrn hlb hrb prec .single lhs rhs b h q k

theorem hostDot_values {B H Q K D : Nat} {φ₁ φ₂ : FTy}
    (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1])
    (prec : Option ContractPrecision) (lhs : FVec Ideal ⟨4, ![B, H, Q, K]⟩ φ₁) (rhs : FVec Ideal ⟨4, ![B, H, K, D]⟩ φ₂)
    (b : Fin B) (h : Fin H) (q : Fin Q) (e : Fin D) :
    Host.dotGeneral d prec lhs rhs (ix4 b h q e) = ∑ k : Fin K, lhs (ix4 b h q k) * rhs (ix4 b h k e) :=
  dotGeneral_values d hlc hrc hln hrn hlb hrb prec .single lhs rhs b h q e

end Cert.Lib.AttentionDots

end
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.K1Payload.lean ====
/-
  The body's three stored values at the exact extended reals, entry by entry: the zero block is 0 everywhere;
  the accumulation adds to the old accumulator at (p, q) the sum over the 128 columns d of the x-block at
  (p, d) times the weight-block at (q, d) (the weight block is contracted along its second axis, and rounding
  the x-block to the narrower format changes nothing here); the rescale multiplies the accumulator at (p, q) by the scale
  row at (0, q).
-/
import proofs.«144505_j26989574488653_2_alg».proof.Proof.Gen.KernelIdeal.Skeleton
import proofs.«144505_j26989574488653_2_alg».proof.Proof.LibAttentionDots
import proofs.«144505_j26989574488653_2_alg».proof.Proof.LibRank2Layout
import Idealize.ShloMosaic.Lib.ValueIdx
import Idealize.ShloMosaic.Lib.Pipeline.Value
import Idealize.ShloMosaic.PureOps.Ideal.Laws

set_option maxRecDepth 16384
set_option pp.maxSteps 5000
set_option pp.deepTerms false

noncomputable section

open scoped BigOperators

namespace Cert.KernelIdeal.HandValue

open Idealize.ShloMosaic Idealize.ShloMosaic.ValueIdx
open Cert.KernelIdeal Cert.KernelIdeal.Gen

/-- The zero block is 0 at every entry. -/
theorem pay1_apply (p : Fin 1024) (q : Fin 2048) : k1_pay1 (F := Ideal) (ix2 p q) = 0 := by
  unfold k1_pay1
  rw [shapeCast_self]
  exact Ideal.ofBits_zero_f32

/-- The accumulation at (p, q): the old accumulator plus the contraction over the block's 128 columns. -/
theorem pay2_apply (x0 : Vec Ideal S1024x128 .f32) (x1 : Vec Ideal S2048x128 .bf16) (acc : Vec Ideal S1024x2048 .f32)
    (p : Fin 1024) (q : Fin 2048) :
    k1_pay2 (F := Ideal) x0 x1 acc (ix2 p q) = acc (ix2 p q) + ∑ d : Fin 128, x0 (ix2 p d) * x1 (ix2 q d) := by
  unfold k1_pay2
  simp only [shapeCast_self]
  refine congrArg (acc (ix2 p q) + ·) ?_
  exact Cert.Lib.AttentionDots.matmul_trhs dot_S1024x128_S2048x128_S1024x2048_1_1_0_0_n_n rfl rfl rfl rfl rfl rfl none _ _ p q

/-- The rescale at (p, q): the accumulator times the scale row's entry (0, q). -/
theorem pay3_apply (acc : Vec Ideal S1024x2048 .f32) (s : Vec Ideal S1x2048 .f32) (p : Fin 1024) (q : Fin 2048) :
    k1_pay3 (F := Ideal) acc s (ix2 p q) = acc (ix2 p q) * s (ix2 (0 : Fin 1) q) := by
  unfold k1_pay3
  simp only [shapeCast_self]
  refine congrArg (acc (ix2 p q) * ·) ?_
  exact Idealize.ShloMosaic.Rank2.bcastRow_apply s broadcasts_S1x2048_S1024x2048 p q

end Cert.KernelIdeal.HandValue

end
-- ==== Proof.KOutSpec.lean ====
/-
  What the second pallas_call leaves in its output array, as one function of its three operand arrays.

  With X the flattened input [4096, 4096], E the stored effective weight [4096, 4096] and S the row of scales
  [1, 4096], entry (r, o) of the output is  ( Σ_i X(r,i)·E(o,i) ) · S(0,o).
-/
import proofs.«144505_j26989574488653_2_alg».proof.Proof.Spec

noncomputable section

open scoped BigOperators

namespace Cert.Dora

open Idealize.ShloMosaic Idealize.ShloMosaic.ValueIdx

/-- The shape of a one-row matrix of 4096 columns. -/
abbrev SR : Shape := ⟨2, ![1, 4096]⟩

/-- Entry (r, o) of the second call's output: the product of row r of X with row o of E, times the scale S(0,o). -/
def call2Out (X : FVec Ideal SW .f32) (E : FVec Ideal SW .bf16) (S : FVec Ideal SR .f32) : FVec Ideal SW .f32 :=
  fun j => (∑ i : Fin 4096, X (ix2 (j 0) i) * E (ix2 (j 1) i)) * S (ix2 (0 : Fin 1) (j 1))

end Cert.Dora

end
-- ==== Proof.K1Target.lean ====
/-
  What the second pallas_call's output array holds in the end, as one function of the arrays it is entered with:
  entry (r, o) is  ( Σ_i X(r,i) · E(o,i) ) · s(0,o)  — X the flattened input, E the stored effective weight, s the scale row.
-/
import proofs.«144505_j26989574488653_2_alg».proof.Proof.K1Frame
import proofs.«144505_j26989574488653_2_alg».proof.Proof.KOutSpec

noncomputable section

open scoped BigOperators

namespace Cert.KernelIdeal.HandTarget

open Idealize.ShloMosaic Idealize.ShloMosaic.TcCoe Idealize.ShloMosaic.ValueIdx Idealize.SL.Sem
open Cert.KernelIdeal

/-- Entry (r, o) of the second call's result. -/
def outG (V : (c : Dev nD) → (b : Ref sig .tc) → Buf (Elt Ideal) ((c : Thread nD τ).loc b)) (c : Dev nD) (r o : Fin 4096) : EReal :=
  Cert.Dora.call2Out (V c main_v3) (V c main_v0_0) (V c main_v2) (ix2 r o)

/-- Spelled out: the contraction of row r of X with row o of E, times the scale at o. -/
theorem outG_eq (V : (c : Dev nD) → (b : Ref sig .tc) → Buf (Elt Ideal) ((c : Thread nD τ).loc b)) (c : Dev nD) (r o : Fin 4096) :
    outG V c r o = Cert.Dora.call2Out (V c main_v3) (V c main_v0_0) (V c main_v2) (ix2 r o) := rfl

end Cert.KernelIdeal.HandTarget

end
-- ==== Proof.LibBlockSums.lean ====
import Mathlib

/-! # Sums over a range cut into equal blocks, and running sums

Two regroupings of a finite sum in a commutative additive monoid (the extended reals among them: no
finiteness is asked):

* `sum_blocks`: a sum over `a · b` consecutive positions is the sum, over the `a` blocks of `b` consecutive
  positions, of each block's sum: `∑ n < a, ∑ q < b, f (b · n + q) = ∑ j < a · b, f j`. The literal forms
  `8 · 512 = 4096` and `4 · 1024 = 4096` state it over `Fin 4096`.
* `foldl_add_eq_sum` / `runningSum_eq_sum`: an accumulator that starts at `0` and adds `g n` at step `n`
  holds, after all `N` steps, `∑ n < N, g n`. -/

open scoped BigOperators

namespace Cert.BlockSums

variable {M : Type*} [AddCommMonoid M]

/-- Position `b · n + q` of block `n`, offset `q`, lies below `a · b`. -/
theorem block_pos_lt {a b : ℕ} (n : Fin a) (q : Fin b) : b * n.val + q.val < a * b := by
  have hn := n.isLt
  have hq := q.isLt
  calc b * n.val + q.val < b * n.val + b := by omega
    _ = b * (n.val + 1) := by ring
    _ ≤ b * a := Nat.mul_le_mul_left b hn
    _ = a * b := Nat.mul_comm b a

/-- A sum over `a · b` positions, block by block. -/
theorem sum_blocks (a b : ℕ) (f : ℕ → M) :
    ∑ n : Fin a, ∑ q : Fin b, f (b * n.val + q.val) = ∑ j : Fin (a * b), f j.val := by
  rw [← Fintype.sum_prod_type', ← Equiv.sum_comp (finProdFinEquiv (m := a) (n := b))]
  refine Finset.sum_congr rfl fun p _ => ?_
  show f (b * p.1.val + p.2.val) = f (p.2.val + b * p.1.val)
  rw [Nat.add_comm]

/-- The same over `Fin N` with `N = a · b`, for a function of the position as an element of `Fin N`. -/
theorem sum_blocks_fin {N : ℕ} (a b : ℕ) (h : a * b = N) (f : Fin N → M) :
    ∑ n : Fin a, ∑ q : Fin b, f ⟨b * n.val + q.val, h ▸ block_pos_lt n q⟩ = ∑ j : Fin N, f j := by
  subst h
  have key := sum_blocks a b (fun j => if hj : j < a * b then f ⟨j, hj⟩ else 0)
  simp only [block_pos_lt, dif_pos, Fin.is_lt, Fin.eta] at key
  exact key

/-- Eight blocks of 512 positions make up 4096 positions. -/
theorem sum_blocks_8_512 (f : Fin 4096 → M) :
    ∑ n : Fin 8, ∑ q : Fin 512, f ⟨512 * n.val + q.val, by have := n.isLt; have := q.isLt; omega⟩
      = ∑ j : Fin 4096, f j :=
  sum_blocks_fin 8 512 rfl f

/-- Four blocks of 1024 positions make up 4096 positions. -/
theorem sum_blocks_4_1024 (f : Fin 4096 → M) :
    ∑ n : Fin 4, ∑ q : Fin 1024, f ⟨1024 * n.val + q.val, by have := n.isLt; have := q.isLt; omega⟩
      = ∑ j : Fin 4096, f j :=
  sum_blocks_fin 4 1024 rfl f

/-- A left fold that adds `g n` at step `n`, from `init`, over the first `N` steps, is `init` plus the sum. -/
theorem foldl_add_eq_sum (g : ℕ → M) (init : M) (N : ℕ) :
    (List.range N).foldl (fun acc n => acc + g n) init = init + ∑ n ∈ Finset.range N, g n := by
  induction N with
  | zero => simp
  | succ N ih =>
    rw [List.range_succ, List.foldl_append, ih, Finset.sum_range_succ]
    show init + ∑ n ∈ Finset.range N, g n + g N = _
    rw [add_assoc]

/-- The running sum: `acc 0 = 0`, `acc (n + 1) = acc n + g n`. -/
def runningSum (g : ℕ → M) : ℕ → M
  | 0 => 0
  | n + 1 => runningSum g n + g n

/-- After `N` steps the running sum is `∑ n < N, g n`. -/
theorem runningSum_eq_sum (g : ℕ → M) (N : ℕ) : runningSum g N = ∑ n ∈ Finset.range N, g n := by
  induction N with
  | zero => rfl
  | succ N ih => rw [runningSum, ih, Finset.sum_range_succ]

/-- Any accumulator sequence that starts at `0` and adds `g n` at step `n` is, after `N` steps, the sum over
    `Fin N` of `g`. -/
theorem acc_eq_sum_fin (g : ℕ → M) (acc : ℕ → M) (h0 : acc 0 = 0) (hs : ∀ n, acc (n + 1) = acc n + g n) (N : ℕ) :
    acc N = ∑ n : Fin N, g n.val := by
  rw [Fin.sum_univ_eq_sum_range (fun n => g n) N]
  induction N with
  | zero => simpa using h0
  | succ N ih => rw [hs, ih, Finset.sum_range_succ]

end Cert.BlockSums
-- ==== Proof.K1Value.lean ====
/-
  The second call's output blocks, entry by entry, at the exact extended reals.

  At the points of one run (i and j fixed, k = 0 … 31; point number t = 64 i + 32 j + k) the accumulator at (p, q)
  collects, point by point, the contraction of the point's x-block row p with its weight-block row q over the
  block's 128 columns; these are the columns 128 k … 128 k + 127 of row 1024 i + p of X and of row 2048 j + q of the
  weights. After the run's last point the accumulator therefore holds the whole row contraction
  Σ_{n < 4096} X(1024 i + p, n) · Wt(2048 j + q, n) — a sum over 32 blocks of 128 columns is the sum over the 4096
  columns — and the output block takes it times the scale at column 2048 j + q.
-/
import proofs.«144505_j26989574488653_2_alg».proof.Proof.K1Blocks
import proofs.«144505_j26989574488653_2_alg».proof.Proof.K1Pieces
import proofs.«144505_j26989574488653_2_alg».proof.Proof.K1Payload
import proofs.«144505_j26989574488653_2_alg».proof.Proof.K1Target
import proofs.«144505_j26989574488653_2_alg».proof.Proof.LibBlockSums

set_option maxRecDepth 16384
set_option pp.maxSteps 5000
set_option pp.deepTerms false

noncomputable section

open scoped BigOperators

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- If a pair is (a, b) and b is b', the pair's second component is b'. -/
theorem snd_of_pair {α β : Type} {p : α × β} {a : α} {b b' : β} (h : p = (a, b)) (hb : b = b') : p.2 = b' := by
  subst h; exact hb

/-- If a pair is (a, b) and a is a', the pair's first component is a'. -/
theorem fst_of_pair {α β : Type} {p : α × β} {a a' : α} {b : β} (h : p = (a, b)) (ha : a = a') : p.1 = a' := by
  subst h; exact ha

/-! ## The accumulator along a run -/

/-- What point m adds to the accumulator at (p, q): its x-block row p contracted with its weight-block row q
    (0 past the grid, where nothing is asked). -/
def addend (c : Dev nD) (p : Fin 1024) (q : Fin 2048) (m : ℕ) : EReal :=
  if h : m < cfg1.N then
    ∑ d : Fin 128, xb V c ⟨m, h⟩ (ix2 p d) * wb V c ⟨m, h⟩ (ix2 q d)
  else 0

theorem addend_of_lt (c : Dev nD) (p : Fin 1024) (q : Fin 2048) (t : Fin cfg1.N) :
    addend V c p q t.val
      = ∑ d : Fin 128, xb V c t (ix2 p d) * wb V c t (ix2 q d) := by
  unfold addend
  rw [dif_pos t.isLt]

/-- What the accumulator holds after point t, as a term of the point's blocks: at k = 0 the product added to the
    zero block, elsewhere added to what the point before left. -/
theorem acc_first (c : Dev nD) (t : Fin cfg1.N) (h0 : t.val % 32 = 0) :
    (outsAt1 V c t.val t.isLt).2 = k1_pay2 (F := Ideal) (xb V c t) (wb V c t) (k1_pay1 (F := Ideal)) := by
  have h1 : ¬t.val % 32 = 31 := by omega
  have e1 := outsAt1_A V c t h0 h1
  have e2 := sout_A (F := Ideal) c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)
  exact snd_of_pair e1 e2

theorem acc_next (c : Dev nD) (t : Fin cfg1.N) (h0 : ¬t.val % 32 = 0) :
    (outsAt1 V c t.val t.isLt).2
      = k1_pay2 (F := Ideal) (xb V c t) (wb V c t) (outsAt1 V c (t.val - 1) (Nat.lt_of_le_of_lt (Nat.sub_le _ _) t.isLt)).2 := by
  by_cases h1 : t.val % 32 = 31
  · have e1 := outsAt1_C V c t h0 h1
    have e2 := sout_C (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
    exact snd_of_pair e1 e2
  · have e1 := outsAt1_B V c t h0 h1
    have e2 := sout_B (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2
    exact snd_of_pair e1 e2

/-- After point n = 32 a + k the accumulator at (p, q) is the sum of what the points 32 a, …, 32 a + k added. -/
theorem acc_eq (c : Dev nD) (p : Fin 1024) (q : Fin 2048) : ∀ (n : ℕ) (hn : n < cfg1.N),
    (outsAt1 V c n hn).2 (ix2 p q) = ∑ s ∈ Finset.range (n % 32 + 1), addend V c p q (n - n % 32 + s)
  | 0, hn => by
    refine (congrFun (acc_first V c ⟨0, hn⟩ (Nat.zero_mod _)) (ix2 p q)).trans ?_
    refine (pay2_apply (xb V c ⟨0, hn⟩) (wb V c ⟨0, hn⟩) (k1_pay1 (F := Ideal)) p q).trans ?_
    rw [pay1_apply, zero_add, ← addend_of_lt V c p q ⟨0, hn⟩]
    show _ = ∑ s ∈ Finset.range 1, addend V c p q (0 + s)
    rw [Finset.sum_range_one]
  | n + 1, hn => by
    by_cases h0 : (n + 1) % 32 = 0
    · refine (congrFun (acc_first V c ⟨n + 1, hn⟩ h0) (ix2 p q)).trans ?_
      refine (pay2_apply (xb V c ⟨n + 1, hn⟩) (wb V c ⟨n + 1, hn⟩) (k1_pay1 (F := Ideal)) p q).trans ?_
      rw [pay1_apply, zero_add, ← addend_of_lt V c p q ⟨n + 1, hn⟩, h0, Finset.sum_range_one]
      rfl
    · refine (congrFun (acc_next V c ⟨n + 1, hn⟩ h0) (ix2 p q)).trans ?_
      refine (pay2_apply (xb V c ⟨n + 1, hn⟩) (wb V c ⟨n + 1, hn⟩) _ p q).trans ?_
      have ih := acc_eq c p q n (Nat.lt_of_succ_lt hn)
      have hm : (n + 1) % 32 = n % 32 + 1 := by omega
      have hb : n + 1 - (n + 1) % 32 = n - n % 32 := by omega
      have hl : n - n % 32 + (n % 32 + 1) = n + 1 := by omega
      rw [← addend_of_lt V c p q ⟨n + 1, hn⟩, hb, hm, Finset.sum_range_succ, hl]
      exact congrArg (· + addend V c p q (n + 1)) ih

/-- At a run's last point (k = 31) the output block at (p, q) is the sum of the run's 32 addends times the
    point's scale block at (0, q). -/
theorem out_eq (c : Dev nD) (t : Fin cfg1.N) (h31 : t.val % 32 = 31) (p : Fin 1024) (q : Fin 2048) :
    (outsAt1 V c t.val t.isLt).1 (ix2 p q)
      = (∑ s ∈ Finset.range 32, addend V c p q (t.val - 31 + s)) * sb V c t (ix2 (0 : Fin 1) q) := by
  have h0 : ¬t.val % 32 = 0 := by omega
  have e1 := outsAt1_C V c t h0 h31
  have e2 := out_C (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h31) (iblk1 V c 0 t) (iblk1 V c 1 t) (iblk1 V c 2 t) (outsAt1 V c (t.val - 1) (Nat.lt_of_le_of_lt (Nat.sub_le _ _) t.isLt)).2
  have h1 : (outsAt1 V c t.val t.isLt).1
      = k1_pay3 (F := Ideal) (k1_pay2 (F := Ideal) (xb V c t) (wb V c t) (outsAt1 V c (t.val - 1) (Nat.lt_of_le_of_lt (Nat.sub_le _ _) t.isLt)).2) (sb V c t) :=
    fst_of_pair e1 e2
  refine (congrFun h1 (ix2 p q)).trans ?_
  refine (pay3_apply _ (sb V c t) p q).trans ?_
  have hacc := acc_eq V c p q t.val t.isLt
  rw [h31] at hacc
  rw [← acc_next V c t h0, hacc]

/-! ## The run's sum is the row contraction -/

/-- The addend of the run's point number s (k = s), as 128 columns of X and of the weights. -/
theorem addend_run (c : Dev nD) (t : Fin cfg1.N) (h31 : t.val % 32 = 31) (p : Fin 1024) (q : Fin 2048) (r o : Fin 4096)
    (hr : r.val = 1024 * (t.val / 64) + p.val) (ho : o.val = 2048 * (t.val / 32 % 2) + q.val) (s : Fin 32) :
    addend V c p q (t.val - 31 + s.val)
      = ∑ d : Fin 128, XA V c (ix2 r ⟨128 * s.val + d.val, by have := s.isLt; have := d.isLt; omega⟩)
          * EA V c (ix2 o ⟨128 * s.val + d.val, by have := s.isLt; have := d.isLt; omega⟩) := by
  have hN : t.val < 256 := lt_of_lt_of_eq t.isLt N_1
  have hs := s.isLt
  have hm : t.val - 31 + s.val < cfg1.N := lt_of_lt_of_eq (by omega : t.val - 31 + s.val < 256) N_1.symm
  refine (addend_of_lt V c p q ⟨t.val - 31 + s.val, hm⟩).trans (Finset.sum_congr rfl fun d _ => ?_)
  have hd := d.isLt
  exact congrArg₂ (· * ·)
    (iblk0_apply V c ⟨t.val - 31 + s.val, hm⟩ p d r ⟨128 * s.val + d.val, by omega⟩
      (by show r.val = 1024 * ((t.val - 31 + s.val) / 64) + p.val; omega)
      (by show 128 * s.val + d.val = 128 * ((t.val - 31 + s.val) % 32) + d.val; omega))
    (iblk1_apply V c ⟨t.val - 31 + s.val, hm⟩ q d o ⟨128 * s.val + d.val, by omega⟩
      (by show o.val = 2048 * ((t.val - 31 + s.val) / 32 % 2) + q.val; omega)
      (by show 128 * s.val + d.val = 128 * ((t.val - 31 + s.val) % 32) + d.val; omega))

/-- At a run's last point the output block's entry (p, q) is the output's entry (1024 i + p, 2048 j + q): the
    contraction of row 1024 i + p of X with row 2048 j + q of the weights over all 4096 columns, times the scale
    at column 2048 j + q. -/
theorem block_value (c : Dev nD) (t : Fin cfg1.N) (ht : t.val % 32 = 31) (p : Fin 1024) (q : Fin 2048)
    (hr : 1024 * (t.val / 64) + p.val < 4096) (ho : 2048 * (t.val / 32 % 2) + q.val < 4096) :
    (outsAt1 V c t.val t.isLt).1 (ix2 p q)
      = Cert.KernelIdeal.HandTarget.outG V c ⟨1024 * (t.val / 64) + p.val, hr⟩ ⟨2048 * (t.val / 32 % 2) + q.val, ho⟩ := by
  refine (out_eq V c t ht p q).trans ?_
  show _ = (∑ i : Fin 4096, XA V c (ix2 (⟨1024 * (t.val / 64) + p.val, hr⟩ : Fin 4096) i) * EA V c (ix2 (⟨2048 * (t.val / 32 % 2) + q.val, ho⟩ : Fin 4096) i))
    * SA V c (ix2 (0 : Fin 1) (⟨2048 * (t.val / 32 % 2) + q.val, ho⟩ : Fin 4096))
  rw [iblk2_apply V c t q ⟨2048 * (t.val / 32 % 2) + q.val, ho⟩ rfl, Finset.sum_range]
  refine congrArg (· * SA V c (ix2 (0 : Fin 1) (⟨2048 * (t.val / 32 % 2) + q.val, ho⟩ : Fin 4096))) ?_
  refine Eq.trans ?_ (Cert.BlockSums.sum_blocks_fin 32 128 rfl
    (fun i : Fin 4096 => XA V c (ix2 (⟨1024 * (t.val / 64) + p.val, hr⟩ : Fin 4096) i) * EA V c (ix2 (⟨2048 * (t.val / 32 % 2) + q.val, ho⟩ : Fin 4096) i)))
  exact Finset.sum_congr rfl fun s _ => addend_run V c t ht p q _ _ rfl rfl s

end Cert.KernelIdeal.HandValue

end
-- ==== Proof.K1Array.lean ====
/-
  The second loop's output array after all of its points, from what its write-backs write.

  The 256 points are (i, j, k) with k running fastest: point number t = 64 i + 32 j + k.  The output block is
  1024 × 2048 and sits at block position (i, j) = (t / 64, t / 32 % 2) of the 4096 × 4096 array; it is written
  back only at the points with k = 31.  If at each such point the block holds, at (p, q), the entry
  (1024 i + p, 2048 j + q) of one whole-array function G, then the array ends as G: entry (r, o) lies in the
  block written back at the point 64 (r / 1024) + 32 (o / 2048) + 31, and the eight such blocks tile the array.
-/
import proofs.«144505_j26989574488653_2_alg».proof.Proof.K1Target
import Idealize.ShloMosaic.Lib.Pipeline.Value

noncomputable section

open scoped BigOperators

namespace Cert.KernelIdeal.HandArray

open Idealize.ShloMosaic Idealize.ShloMosaic.TcCoe Idealize.SL.Sem Idealize.ShloMosaic.ValueIdx
open Idealize.ShloMosaic.Pipeline (Dat)
open Cert.KernelIdeal Cert.KernelIdeal.Gen

/-- A 1024 × 2048 block whose entries (p, q) are entries (1024 a + p, 2048 b + q) of G, read at any of its indices. -/
theorem block_at (X : Vec Ideal S1024x2048 .f32) (G : Fin 4096 → Fin 4096 → EReal) (a b : ℕ)
    (h : ∀ (p : Fin 1024) (q : Fin 2048) (hr : 1024 * a + p.val < 4096) (ho : 2048 * b + q.val < 4096),
      X (ix2 p q) = G ⟨1024 * a + p.val, hr⟩ ⟨2048 * b + q.val, ho⟩)
    (y : S1024x2048.Idx) (hr : 1024 * a + (y 0).val < 4096) (ho : 2048 * b + (y 1).val < 4096) :
    X y = G ⟨1024 * a + (y 0).val, hr⟩ ⟨2048 * b + (y 1).val, ho⟩ := by
  obtain ⟨p, q, rfl⟩ : ∃ (p : Fin 1024) (q : Fin 2048), y = ix2 p q := ⟨y 0, y 1, eq_ix2 y⟩
  exact h p q hr ho

section Array

variable (V : (c : Dev nD) → (b : Ref sig .tc) → Buf (Elt Ideal) ((c : Thread nD τ).loc b))

/-- The result as an array over the arrays the loop found. -/
abbrev outArr (c : Dev nD) : S4096x4096.Idx → EReal :=
  fun j => Cert.KernelIdeal.HandTarget.outG V c (j 0) (j 1)

/-- The output block's position at point t: (t / 64, t / 32 % 2). -/
theorem idx_facts3 : ∀ t : Fin cfg1.N,
    win1_3.index t (0 : Fin 2) = t.val / 64 ∧ win1_3.index t (1 : Fin 2) = t.val / 32 % 2 :=
  (by decide +kernel : ∀ t : Fin grid1.N, _)

theorem lt256 (t : Fin cfg1.N) : t.val < 256 := lt_of_lt_of_eq t.isLt N_1

/-- A point that writes back writes its block of the result. -/
theorem flushed_eq (c : Dev nD)
    (hblock : ∀ (t : Fin cfg1.N), t.val % 32 = 31 → ∀ (p : Fin 1024) (q : Fin 2048) (hr : 1024 * (t.val / 64) + p.val < 4096) (ho : 2048 * (t.val / 32 % 2) + q.val < 4096),
      (Cert.KernelIdeal.Hand.outsAt1 V c t.val t.isLt).1 (ix2 p q) = Cert.KernelIdeal.HandTarget.outG V c ⟨1024 * (t.val / 64) + p.val, hr⟩ ⟨2048 * (t.val / 32 % 2) + q.val, ho⟩)
    (t : Fin cfg1.N) (hf : (cfg1.win 3).flush t = true) :
    (Cert.KernelIdeal.Hand.dat1 V c).flushed 3 t = ((cfg1.win 3).blk t).view.read (Elt Ideal) (outArr V c) := by
  have h31 : t.val % 32 = 31 := (flush1_3 t).mp hf
  have ht := lt256 t
  obtain ⟨e0, e1⟩ := idx_facts3 t
  show (cfg1.win 3).cut (grid1.coords t) ((Cert.KernelIdeal.Hand.dat1 V c).after 3 t) = _
  rw [Cert.KernelIdeal.Hand.after1_3]
  funext j
  show (Cert.KernelIdeal.Hand.outsAt1 V c t.val t.isLt).1 j = outArr V c (((cfg1.win 3).blk t).view.emb j)
  have hj0 : (j 0).val < 1024 := (j 0).isLt
  have hj1 : (j 1).val < 2048 := (j 1).isLt
  refine (block_at (Cert.KernelIdeal.Hand.outsAt1 V c t.val t.isLt).1 (Cert.KernelIdeal.HandTarget.outG V c)
    (t.val / 64) (t.val / 32 % 2) (hblock t h31) j (by omega) (by omega)).trans ?_
  refine congrArg₂ (Cert.KernelIdeal.HandTarget.outG V c) (Fin.ext ?_) (Fin.ext ?_)
  · show 1024 * (t.val / 64) + (j 0).val = win1_3.index t 0 * 1024 + 1 * (j 0).val
    rw [e0]; omega
  · show 2048 * (t.val / 32 % 2) + (j 1).val = win1_3.index t 1 * 2048 + 1 * (j 1).val
    rw [e1]; omega

/-- An index of the array lies in point t's block iff its row and column are in the block's ranges. -/
theorem mem_blk (t : Fin cfg1.N) (i : S4096x4096.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v4).slice (win1_3.rect t)).set ↔ _
  rw [View.set_slice_whole, Rect.mem_set_unit]
  exact Iff.rfl

/-- Entry (r, o) is written back at the point 64 (r / 1024) + 32 (o / 2048) + 31. -/
theorem cover (i : S4096x4096.Idx) :
    ∃ t : Fin cfg1.N, (cfg1.win 3).flush t = true ∧ i ∈ ((cfg1.win 3).blk t).view.set := by
  have hi0 : (i 0).val < 4096 := (i 0).isLt
  have hi1 : (i 1).val < 4096 := (i 1).isLt
  have hN : 64 * ((i 0).val / 1024) + 32 * ((i 1).val / 2048) + 31 < cfg1.N :=
    lt_of_lt_of_eq (by omega : 64 * ((i 0).val / 1024) + 32 * ((i 1).val / 2048) + 31 < 256) N_1.symm
  obtain ⟨e0, e1⟩ := idx_facts3 ⟨64 * ((i 0).val / 1024) + 32 * ((i 1).val / 2048) + 31, hN⟩
  refine ⟨⟨64 * ((i 0).val / 1024) + 32 * ((i 1).val / 2048) + 31, hN⟩, (flush1_3 _).mpr (by show (64 * ((i 0).val / 1024) + 32 * ((i 1).val / 2048) + 31) % 32 = 31; omega), ?_⟩
  rw [mem_blk]
  intro a
  match a with
  | ⟨0, _⟩ =>
    show win1_3.index ⟨64 * ((i 0).val / 1024) + 32 * ((i 1).val / 2048) + 31, hN⟩ 0 * 1024 ≤ (i 0).val ∧ (i 0).val < win1_3.index ⟨64 * ((i 0).val / 1024) + 32 * ((i 1).val / 2048) + 31, hN⟩ 0 * 1024 + 1024
    rw [e0]
    show (64 * ((i 0).val / 1024) + 32 * ((i 1).val / 2048) + 31) / 64 * 1024 ≤ (i 0).val ∧ (i 0).val < (64 * ((i 0).val / 1024) + 32 * ((i 1).val / 2048) + 31) / 64 * 1024 + 1024
    omega
  | ⟨1, _⟩ =>
    show win1_3.index ⟨64 * ((i 0).val / 1024) + 32 * ((i 1).val / 2048) + 31, hN⟩ 1 * 2048 ≤ (i 1).val ∧ (i 1).val < win1_3.index ⟨64 * ((i 0).val / 1024) + 32 * ((i 1).val / 2048) + 31, hN⟩ 1 * 2048 + 2048
    rw [e1]
    show (64 * ((i 0).val / 1024) + 32 * ((i 1).val / 2048) + 31) / 32 % 2 * 2048 ≤ (i 1).val ∧ (i 1).val < (64 * ((i 0).val / 1024) + 32 * ((i 1).val / 2048) + 31) / 32 % 2 * 2048 + 2048
    omega

/-- THE OUTPUT ARRAY after all 256 points, given what the block holds at each point that writes it back. -/
theorem out_array_of (c : Dev nD)
    (hblock : ∀ (t : Fin cfg1.N), t.val % 32 = 31 → ∀ (p : Fin 1024) (q : Fin 2048) (hr : 1024 * (t.val / 64) + p.val < 4096) (ho : 2048 * (t.val / 32 % 2) + q.val < 4096),
      (Cert.KernelIdeal.Hand.outsAt1 V c t.val t.isLt).1 (ix2 p q) = Cert.KernelIdeal.HandTarget.outG V c ⟨1024 * (t.val / 64) + p.val, hr⟩ ⟨2048 * (t.val / 32 % 2) + q.val, ho⟩) :
    (Cert.KernelIdeal.Hand.dat1 V c).arrAt 3 cfg1.N = fun j => Cert.KernelIdeal.HandTarget.outG V c (j 0) (j 1) :=
  (Cert.KernelIdeal.Hand.dat1 V c).arrAt_eq_of_cover 3 (outArr V c) (fun t hf => flushed_eq V c hblock t hf) cover

end Array

end Cert.KernelIdeal.HandArray

end
-- ==== Proof.KGlue.lean ====
/-
  From the two pallas_calls' arrays to the program's result, on the extended reals.

  Around the calls the program only re-lays arrays and divides one row by another: the magnitude [4096] is
  read as a row [1, 4096] and divided, entry by entry, by the row of norms the first call leaves; the input
  [2, 2048, 4096] is flattened to [4096, 4096], entry (2048·b + s, i) being entry (b, s, i); and the second call's
  output [4096, 4096] is cut back to [2, 2048, 4096], entry (b, s, o) being entry (2048·b + s, o).

  So if the first call leaves the effective weight E = W + B·A and the row norms ‖E(o,·)‖, and the second call
  leaves (Σ_i X(r,i)·E(o,i))·S(0,o) for its operands X, E, S, then entry (b, s, o) of the program's result is
  (Σ_i x(b,s,i)·E(o,i)) · (mag(o) / ‖E(o,·)‖): the specification's kernel-side value.
-/
import proofs.«144505_j26989574488653_2_alg».proof.Proof.KRun
import proofs.«144505_j26989574488653_2_alg».proof.Proof.Spec
import proofs.«144505_j26989574488653_2_alg».proof.Proof.KOutSpec
import proofs.«144505_j26989574488653_2_alg».proof.Proof.LibHostMatrix

set_option maxRecDepth 16384

noncomputable section

open scoped BigOperators

namespace Cert.KernelIdeal.Glue

open Idealize.ShloMosaic Idealize.ShloMosaic.TcCoe Idealize.ShloMosaic.ValueIdx
open Idealize.SL.Sem
open Cert.KernelIdeal Cert.KernelIdeal.Hand

/-! ## The two re-layings at an index -/

/-- Row 2048·b + s of the flattened input. -/
def row (b : Fin 2) (s : Fin 2048) : Fin 4096 := ⟨2048 * b.val + s.val, by have := b.isLt; have := s.isLt; omega⟩

/-- A [2, 2048, 4096] array flattened to [4096, 4096]: entry (2048·b + s, i) is entry (b, s, i). -/
theorem flatten_apply {α : Type} (x : (⟨3, ![2, 2048, 4096]⟩ : Shape).Idx → α)
    (h : (⟨3, ![2, 2048, 4096]⟩ : Shape).ShapeCasts ⟨2, ![4096, 4096]⟩) (b : Fin 2) (s : Fin 2048) (i : Fin 4096) :
    shapeCast (⟨2, ![4096, 4096]⟩ : Shape) x h (ix2 (row b s) i) = x (ix3 b s i) := by
  refine shapeCast_apply x h _ (ix3 b s i) ?_
  rw [Shape.rowMajor_val_three, Shape.rowMajor_val_two]
  show (b.val * 2048 + s.val) * 4096 + i.val = (2048 * b.val + s.val) * 4096 + i.val
  omega

/-- A [4096, 4096] array cut to [2, 2048, 4096]: entry (b, s, o) is entry (2048·b + s, o). -/
theorem unflatten_apply {α : Type} (y : (⟨2, ![4096, 4096]⟩ : Shape).Idx → α)
    (h : (⟨2, ![4096, 4096]⟩ : Shape).ShapeCasts ⟨3, ![2, 2048, 4096]⟩) (b : Fin 2) (s : Fin 2048) (o : Fin 4096) :
    shapeCast (⟨3, ![2, 2048, 4096]⟩ : Shape) y h (ix3 b s o) = y (ix2 (row b s) o) := by
  refine shapeCast_apply y h _ (ix2 (row b s) o) ?_
  rw [Shape.rowMajor_val_three, Shape.rowMajor_val_two]
  show (2048 * b.val + s.val) * 4096 + o.val = (b.val * 2048 + s.val) * 4096 + o.val
  omega

/-! ## The buffers the host operations write, and those they leave -/

section
variable (m : (ℓ : Loc nD τ sig) → Buf (Elt Ideal) ℓ) (ρ : Dev nD → PrngReg) (c : Dev nD)

/-- The program's result is the second call's output array cut to [2, 2048, 4096]. -/
theorem W4_v5 : W4 m ρ c (Proc.devRef .tc main_v5)
    = fun j => shapeCast S2x2048x4096 (W3 m ρ c (Proc.devRef .tc main_v4)) Gen.shapeCasts_S4096x4096_S2x2048x4096 j := by
  show StableHlo.after Gen.hostOps2 (W3 m ρ c) (Proc.devRef .tc main_v5) = _
  after_results
  rfl

/-- The second call's first operand is the input flattened to [4096, 4096]. -/
theorem W2_v3 : W2 m ρ c (Proc.devRef .tc main_v3)
    = fun j => shapeCast S4096x4096 (W1 m ρ c (Proc.devRef .tc main_arg0)) Gen.shapeCasts_S2x2048x4096_S4096x4096 j := by
  show StableHlo.after Gen.hostOps1 (W1 m ρ c) (Proc.devRef .tc main_v3) = _
  after_results
  rfl

/-- The second call's row of scales at column o: the magnitude's entry o divided by the first call's norm (0, o). -/
theorem W2_v2_apply (o : Fin 4096) : W2 m ρ c (Proc.devRef .tc main_v2) (ix2 (0 : Fin 1) o)
    = Ideal.div (W1 m ρ c (Proc.devRef .tc main_arg4) (ix1 o)) (W1 m ρ c (Proc.devRef .tc main_v0_1) (ix2 (0 : Fin 1) o)) := by
  have e : W2 m ρ c (Proc.devRef .tc main_v2)
      = fun j => Ideal.div (shapeCast S1x4096 (W1 m ρ c (Proc.devRef .tc main_arg4)) Gen.shapeCasts_S4096_S1x4096 j)
          (W1 m ρ c (Proc.devRef .tc main_v0_1) j) := by
    show StableHlo.after Gen.hostOps1 (W1 m ρ c) (Proc.devRef .tc main_v2) = _
    after_results
    rfl
  refine (congrFun e _).trans ?_
  exact congrArg (fun t => Ideal.div t (W1 m ρ c (Proc.devRef .tc main_v0_1) (ix2 (0 : Fin 1) o)))
    (Cert.Lib.HostMatrix.rowOfVec_apply _ _ (0 : Fin 1) o)

/-- No host operation writes the stored effective weight: the second call reads what the first call left. -/
theorem W2_v0_0 : W2 m ρ c (Proc.devRef .tc main_v0_0) = W1 m ρ c (Proc.devRef .tc main_v0_0) :=
  StableHlo.after_of_writes_sub Gen.hostOps1 _ Gen.hostOps1_writes (by decide)

/-- The first call does not touch the input … -/
theorem W1_arg0 : W1 m ρ c (Proc.devRef .tc main_arg0) = m ((c : Thread nD τ).loc main_arg0) :=
  (W1_of_ne m ρ c main_arg0 (by decide)).trans rfl
/-- … nor the magnitude. -/
theorem W1_arg4 : W1 m ρ c (Proc.devRef .tc main_arg4) = m ((c : Thread nD τ).loc main_arg4) :=
  (W1_of_ne m ρ c main_arg4 (by decide)).trans rfl

end

/-! ## The program's result -/

/-- THE PROGRAM'S RESULT, given what the two calls leave: if the first call leaves the effective weight and its row
    norms, and the second call leaves, from its operands X, E, S, the array (Σ_i X(r,i)·E(o,i))·S(0,o), then the
    program's result is the specification's kernel-side value, entry by entry. -/
theorem kernel_result (m : (ℓ : Loc nD τ sig) → Buf (Elt Ideal) ℓ) (ρ : Dev nD → PrngReg) (c : Dev nD)
    (hE : (dat0 (V0 m ρ) c).arrAt 3 cfg0.N = fun j => Cert.Dora.effW (V0 m ρ c main_arg1) (V0 m ρ c main_arg2) (V0 m ρ c main_arg3) (j 0) (j 1))
    (hN : (dat0 (V0 m ρ) c).arrAt 4 cfg0.N = fun j => Ideal.sqrt (Cert.Dora.sumSq (V0 m ρ c main_arg1) (V0 m ρ c main_arg2) (V0 m ρ c main_arg3) (j 1)))
    (hO : (dat1 (V2 m ρ) c).arrAt 3 cfg1.N = Cert.Dora.call2Out (V2 m ρ c main_v3) (V2 m ρ c main_v0_0) (V2 m ρ c main_v2)) :
    W4 m ρ c (Proc.devRef .tc main_v5) = fun j => Cert.Dora.kernelOut (m ((c : Thread nD τ).loc main_arg0)) (m ((c : Thread nD τ).loc main_arg1)) (m ((c : Thread nD τ).loc main_arg2)) (m ((c : Thread nD τ).loc main_arg3)) (m ((c : Thread nD τ).loc main_arg4)) (j 0) (j 1) (j 2) := by
  funext j
  obtain ⟨b, s, o, rfl⟩ : ∃ (b : Fin 2) (s : Fin 2048) (o : Fin 4096), j = ix3 b s o := ⟨j 0, j 1, j 2, eq_ix3 j⟩
  -- entry (b, s, o) of the result is entry (2048·b + s, o) of the second call's output
  refine (congrFun (W4_v5 m ρ c) (ix3 b s o)).trans ?_
  refine (unflatten_apply _ _ b s o).trans ?_
  refine (congrFun ((W3_arr m ρ c 3).trans hO) (ix2 (row b s) o)).trans ?_
  -- the three operands of the second call at the indices the output reads
  have hX : ∀ i : Fin 4096, V2 m ρ c main_v3 (ix2 (row b s) i) = m ((c : Thread nD τ).loc main_arg0) (ix3 b s i) := fun i =>
    (congrFun (W2_v3 m ρ c) (ix2 (row b s) i)).trans ((flatten_apply _ _ b s i).trans (congrFun (W1_arg0 m ρ c) (ix3 b s i)))
  have hEo : ∀ i : Fin 4096, V2 m ρ c main_v0_0 (ix2 o i)
      = Cert.Dora.effW (m ((c : Thread nD τ).loc main_arg1)) (m ((c : Thread nD τ).loc main_arg2)) (m ((c : Thread nD τ).loc main_arg3)) o i := fun i =>
    congrFun ((W2_v0_0 m ρ c).trans ((W1_arr m ρ c 3).trans hE)) (ix2 o i)
  have hS : V2 m ρ c main_v2 (ix2 (0 : Fin 1) o)
      = Ideal.div (m ((c : Thread nD τ).loc main_arg4) (ix1 o))
          (Ideal.sqrt (Cert.Dora.sumSq (m ((c : Thread nD τ).loc main_arg1)) (m ((c : Thread nD τ).loc main_arg2)) (m ((c : Thread nD τ).loc main_arg3)) o)) :=
    (W2_v2_apply m ρ c o).trans (congrArg₂ Ideal.div (congrFun (W1_arg4 m ρ c) (ix1 o))
      (congrFun ((W1_arr m ρ c 4).trans hN) (ix2 (0 : Fin 1) o)))
  unfold Cert.Dora.call2Out Cert.Dora.kernelOut
  exact congrArg₂ (· * ·) (Finset.sum_congr rfl fun i _ => congrArg₂ (· * ·) (hX i) (hEo i)) hS

/-- THE PROGRAM'S RUN, given what the two calls leave: every weakly fair execution terminates without a fault, the
    result buffer ends holding the specification's kernel-side value and every argument ends as launched. -/
theorem kernel_run (m : (ℓ : Loc nD τ sig) → Buf (Elt Ideal) ℓ) (ρ : Dev nD → PrngReg)
    (hE : ∀ c : Dev nD, (dat0 (V0 m ρ) c).arrAt 3 cfg0.N = fun j => Cert.Dora.effW (V0 m ρ c main_arg1) (V0 m ρ c main_arg2) (V0 m ρ c main_arg3) (j 0) (j 1))
    (hN : ∀ c : Dev nD, (dat0 (V0 m ρ) c).arrAt 4 cfg0.N = fun j => Ideal.sqrt (Cert.Dora.sumSq (V0 m ρ c main_arg1) (V0 m ρ c main_arg2) (V0 m ρ c main_arg3) (j 1)))
    (hO : ∀ c : Dev nD, (dat1 (V2 m ρ) c).arrAt 3 cfg1.N = Cert.Dora.call2Out (V2 m ρ c main_v3) (V2 m ρ c main_v0_0) (V2 m ρ c main_v2)) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v5)
        = (fun j => Cert.Dora.kernelOut (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4)) (j 0) (j 1) (j 2))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run defs _ _).mono (fun r h c =>
    ⟨(h c _ (mem_uc main_v5 (by decide))).trans (kernel_result m ρ c (hE c) (hN c) (hO c)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Glue

end
-- ==== Proof.lean ====
/-
  The certificate's five claims.
  Three frames: each program runs to the end without a fault and leaves its argument arrays unchanged — for the
  kernel program (at both readings of its floats) from the run of its four segments, for the reference from its
  run as a list of host operations. The idealized kernel program is the kernel program's own text (nothing was
  rewritten). And the two idealized programs, from memories agreeing on the arguments and satisfying the
  precondition (finite entries; every row of the effective weight E = W + B·A nonzero), end with equal results:
  the kernel program's is  (Σ_i x·E(o,i)) · (mag(o)/‖E(o,·)‖),  the reference's
  ((Σ_i x·W(o,i) + Σ_r (Σ_i x·A(r,i))·B(o,r)) / ‖E(o,·)‖) · mag(o);  over the reals these are one number, by
  distributivity and because the norm is a positive real.
-/
import proofs.«144505_j26989574488653_2_alg».proof.Defs
import proofs.«144505_j26989574488653_2_alg».proof.Proof.Gen.Kernel
import proofs.«144505_j26989574488653_2_alg».proof.Proof.Gen.KernelIdeal
import proofs.«144505_j26989574488653_2_alg».proof.Proof.Gen.ReferenceIdeal
import proofs.«144505_j26989574488653_2_alg».proof.Proof.Gen.Pre_finite_inputs
import proofs.«144505_j26989574488653_2_alg».proof.Proof.KRun
import proofs.«144505_j26989574488653_2_alg».proof.Proof.KRunW
import proofs.«144505_j26989574488653_2_alg».proof.Proof.RefValue
import proofs.«144505_j26989574488653_2_alg».proof.Proof.Algebra
import proofs.«144505_j26989574488653_2_alg».proof.Proof.PreFacts
import proofs.«144505_j26989574488653_2_alg».proof.Proof.K0Value
import proofs.«144505_j26989574488653_2_alg».proof.Proof.K1Value
import proofs.«144505_j26989574488653_2_alg».proof.Proof.K1Array
import proofs.«144505_j26989574488653_2_alg».proof.Proof.KGlue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Dora.reference_run m ρ)

theorem preserves : Cert.preserves_Kernel_KernelIdeal := trivial

/-- The second call's result array as one function of the arrays it is entered with. -/
theorem out_array (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) :
    (Cert.KernelIdeal.Hand.dat1 V c).arrAt 3 Cert.KernelIdeal.cfg1.N
      = Cert.Dora.call2Out (V c Cert.KernelIdeal.main_v3) (V c Cert.KernelIdeal.main_v0_0) (V c Cert.KernelIdeal.main_v2) :=
  (Cert.KernelIdeal.HandArray.out_array_of V c (Cert.KernelIdeal.HandValue.block_value V c)).trans
    (funext fun j => (congrArg (Cert.Dora.call2Out (V c Cert.KernelIdeal.main_v3) (V c Cert.KernelIdeal.main_v0_0) (V c Cert.KernelIdeal.main_v2))
      (Idealize.ShloMosaic.ValueIdx.eq_ix2 (n0 := 4096) (n1 := 4096) j)).symm)

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨_, Cert.KernelIdeal.Glue.kernel_run m ρ
    (fun c => Cert.KernelIdeal.Hand.effW_array (Cert.KernelIdeal.Hand.V0 m ρ) c)
    (fun c => Cert.KernelIdeal.Hand.norm_array (Cert.KernelIdeal.Hand.V0 m ρ) c)
    (fun c => out_array (Cert.KernelIdeal.Hand.V2 m ρ) c), ?_⟩
  refine (θ_run Cert.ReferenceIdeal.defs _ _).mono (fun _ h c => ⟨(h c).1.trans ?_, (h c).2⟩) (Cert.Dora.reference_run m' ρ')
  rw [(hagree c).1, (hagree c).2.1, (hagree c).2.2.1, (hagree c).2.2.2.1, (hagree c).2.2.2.2]
  obtain ⟨hx, hW, hA, hB, hmag, hpos⟩ := @Cert.Dora.pre_facts Cert.Pre_finite_inputs.Gen.facts _ _ _ _ _ (hpre c)
  funext j
  exact Cert.Dora.refOut_eq_kernelOut _ _ _ _ _ hx hW hA hB hmag hpos (j 0) (j 1) (j 2)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
